-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S150000x64 : Shape := ⟨2, ![150000, 64]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : IVec S2x1000000 32) (main_arg1 : FVec F S150000x64 .f32) : IVec S_ 1 :=
  let main_v0 : FVec F S150000x64 .f32 := Host.absf main_arg1
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S2x1000000 : Shape := ⟨2, ![2, 1000000]⟩
abbrev S150000x64 : Shape := ⟨2, ![150000, 64]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S2007040 : Shape := ⟨1, ![2007040]⟩
abbrev S2007040x1 : Shape := ⟨2, ![2007040, 1]⟩
abbrev S2007040x64 : Shape := ⟨2, ![2007040, 64]⟩
abbrev S8192x64 : Shape := ⟨2, ![8192, 64]⟩
abbrev S8192x1 : Shape := ⟨2, ![8192, 1]⟩
abbrev S2000000x64 : Shape := ⟨2, ![2000000, 64]⟩
abbrev S151552x64 : Shape := ⟨2, ![151552, 64]⟩
abbrev S4096x64 : Shape := ⟨2, ![4096, 64]⟩
abbrev S100000x64 : Shape := ⟨2, ![100000, 64]⟩
abbrev S50000x64 : Shape := ⟨2, ![50000, 64]⟩

abbrev nBuf : Space → Nat
  | .hbm => 115
  | .vmem => 28
  | .smem => 0
  | _ => 0

abbrev bufTy : (tb : Table) → Fin (tcTables nBuf tb) → BufTy
  | .hbm, ⟨0, _⟩ => ⟨S2x1000000, .i32⟩
  | .hbm, ⟨1, _⟩ => ⟨S150000x64, .f32⟩
  | .hbm, ⟨2, _⟩ => ⟨S1x1000000, .i32⟩
  | .hbm, ⟨3, _⟩ => ⟨S1000000, .i32⟩
  | .hbm, ⟨4, _⟩ => ⟨S1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S2000000, .i32⟩
  | .hbm, ⟨10, _⟩ => ⟨S2000000, .i32⟩
  | .hbm, ⟨11, _⟩ => ⟨S_, .f32⟩
  | .hbm, ⟨12, _⟩ => ⟨S2000000, .f32⟩
  | .hbm, ⟨13, _⟩ => ⟨S_, .f32⟩
  | .hbm, ⟨14, _⟩ => ⟨S150000, .f32⟩
  | .hbm, ⟨15, _⟩ => ⟨S2000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000, .f32⟩
  | .hbm, ⟨46, _⟩ => ⟨S2000000, .f32⟩
  | .hbm, ⟨47, _⟩ => ⟨S_, .f32⟩
  | .hbm, ⟨48, _⟩ => ⟨S_, .f32⟩
  | .hbm, ⟨49, _⟩ => ⟨S2007040, .f32⟩
  | .hbm, ⟨50, _⟩ => ⟨S_, .i32⟩
  | .hbm, ⟨51, _⟩ => ⟨S_, .i32⟩
  | .hbm, ⟨52, _⟩ => ⟨S2007040, .i32⟩
  | .hbm, ⟨53, _⟩ => ⟨S2007040x1, .f32⟩
  | .hbm, ⟨54, _⟩ => ⟨S_, .i32⟩
  | .hbm, ⟨55, _⟩ => ⟨S2007040, .i32⟩
  | .hbm, ⟨56, _⟩ => ⟨S2007040, .i1⟩
  | .hbm, ⟨57, _⟩ => ⟨S_, .i32⟩
  | .hbm, ⟨58, _⟩ => ⟨S2007040, .i32⟩
  | .hbm, ⟨59, _⟩ => ⟨S2007040, .i32⟩
  | .hbm, ⟨60, _⟩ => ⟨S2007040, .i32⟩
  | .hbm, ⟨61, _⟩ => ⟨S2007040x1, .i32⟩
  | .hbm, ⟨62, _⟩ => ⟨S2007040x64, .f32⟩
  | .hbm, ⟨63, _⟩ => ⟨S2007040x64, .f32⟩
  | .hbm, ⟨64, _⟩ => ⟨S2000000x64, .f32⟩
  | .hbm, ⟨65, _⟩ => ⟨S_, .f32⟩
  | .hbm, ⟨66, _⟩ => ⟨S150000x64, .f32⟩
  | .hbm, ⟨67, _⟩ => ⟨S2000000x1, .i32⟩
  | .hbm, ⟨68, _⟩ => ⟨S150000x64, .f32⟩
  | .hbm, ⟨69, _⟩ => ⟨S_, .i32⟩
  | .hbm, ⟨70, _⟩ => ⟨S2007040, .i32⟩
  | .hbm, ⟨71, _⟩ => ⟨S2007040, .i1⟩
  | .hbm, ⟨72, _⟩ => ⟨S_, .i32⟩
  | .hbm, ⟨73, _⟩ => ⟨S2007040, .i32⟩
  | .hbm, ⟨74, _⟩ => ⟨S2007040, .i32⟩
  | .hbm, ⟨75, _⟩ => ⟨S2007040, .i32⟩
  | .hbm, ⟨76, _⟩ => ⟨S2007040x1, .i32⟩
  | .hbm, ⟨77, _⟩ => ⟨S2007040x64, .f32⟩
  | .hbm, ⟨78, _⟩ => ⟨S2007040x64, .f32⟩
  | .hbm, ⟨79, _⟩ => ⟨S2000000x64, .f32⟩
  | .hbm, ⟨80, _⟩ => ⟨S_, .f32⟩
  | .hbm, ⟨81, _⟩ => ⟨S150000x64, .f32⟩
  | .hbm, ⟨82, _⟩ => ⟨S2000000x1, .i32⟩
  | .hbm, ⟨83, _⟩ => ⟨S150000x64, .f32⟩
  | .hbm, ⟨84, _⟩ => ⟨S_, .i32⟩
  | .hbm, ⟨85, _⟩ => ⟨S2007040, .i32⟩
  | .hbm, ⟨86, _⟩ => ⟨S2007040, .i1⟩
  | .hbm, ⟨87, _⟩ => ⟨S_, .i32⟩
  | .hbm, ⟨88, _⟩ => ⟨S2007040, .i32⟩
  | .hbm, ⟨89, _⟩ => ⟨S2007040, .i32⟩
  | .hbm, ⟨90, _⟩ => ⟨S2007040, .i32⟩
  | .hbm, ⟨91, _⟩ => ⟨S2007040x1, .i32⟩
  | .hbm, ⟨92, _⟩ => ⟨S2007040x64, .f32⟩
  | .hbm, ⟨93, _⟩ => ⟨S2007040x64, .f32⟩
  | .hbm, ⟨94, _⟩ => ⟨S2000000x64, .f32⟩
  | .hbm, ⟨95, _⟩ => ⟨S_, .f32⟩
  | .hbm, ⟨96, _⟩ => ⟨S150000x64, .f32⟩
  | .hbm, ⟨97, _⟩ => ⟨S2000000x1, .i32⟩
  | .hbm, ⟨98, _⟩ => ⟨S150000x64, .f32⟩
  | .hbm, ⟨99, _⟩ => ⟨S_, .i32⟩
  | .hbm, ⟨100, _⟩ => ⟨S_, .f32⟩
  | .hbm, ⟨101, _⟩ => ⟨S151552x64, .f32⟩
  | .hbm, ⟨102, _⟩ => ⟨S_, .i32⟩
  | .hbm, ⟨103, _⟩ => ⟨S_, .f32⟩
  | .hbm, ⟨104, _⟩ => ⟨S151552x64, .f32⟩
  | .hbm, ⟨105, _⟩ => ⟨S_, .i32⟩
  | .hbm, ⟨106, _⟩ => ⟨S_, .f32⟩
  | .hbm, ⟨107, _⟩ => ⟨S151552x64, .f32⟩
  | .hbm, ⟨108, _⟩ => ⟨S_, .i32⟩
  | .hbm, ⟨109, _⟩ => ⟨S_, .f32⟩
  | .hbm, ⟨110, _⟩ => ⟨S151552x64, .f32⟩
  | .hbm, ⟨111, _⟩ => ⟨S151552x64, .f32⟩
  | .hbm, ⟨112, _⟩ => ⟨S150000x64, .f32⟩
  | .hbm, ⟨113, _⟩ => ⟨S100000x64, .f32⟩
  | .hbm, ⟨114, _⟩ => ⟨S50000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x1, .f32⟩
  | .local _ .vmem, ⟨15, _⟩ => ⟨S8192x1, .f32⟩
  | .local _ .vmem, ⟨16, _⟩ => ⟨S8192x64, .f32⟩
  | .local _ .vmem, ⟨17, _⟩ => ⟨S8192x64, .f32⟩
  | .local _ .vmem, ⟨18, _⟩ => ⟨S4096x64, .f32⟩
  | .local _ .vmem, ⟨19, _⟩ => ⟨S4096x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_call1_v0 : Ref sig .tc := ⟨.hbm, 48, rfl⟩
abbrev main_v33 : Ref sig .tc := ⟨.hbm, 49, rfl⟩
abbrev main_c_9 : Ref sig .tc := ⟨.hbm, 50, rfl⟩
abbrev main_call2_v0 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_c_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_16 : Ref sig .tc := ⟨.hbm, 84, rfl⟩
abbrev main_v60 : Ref sig .tc := ⟨.hbm, 85, rfl⟩
abbrev main_v61 : Ref sig .tc := ⟨.hbm, 86, rfl⟩
abbrev main_c_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_19 : Ref sig .tc := ⟨.hbm, 99, rfl⟩
abbrev main_call3_v0 : Ref sig .tc := ⟨.hbm, 100, rfl⟩
abbrev main_v72 : Ref sig .tc := ⟨.hbm, 101, rfl⟩
abbrev main_c_20 : Ref sig .tc := ⟨.hbm, 102, rfl⟩
abbrev main_call4_v0 : Ref sig .tc := ⟨.hbm, 103, rfl⟩
abbrev main_v73 : Ref sig .tc := ⟨.hbm, 104, rfl⟩
abbrev main_c_21 : Ref sig .tc := ⟨.hbm, 105, rfl⟩
abbrev main_call5_v0 : Ref sig .tc := ⟨.hbm, 106, rfl⟩
abbrev main_v74 : Ref sig .tc := ⟨.hbm, 107, rfl⟩
abbrev main_c_22 : Ref sig .tc := ⟨.hbm, 108, rfl⟩
abbrev main_call6_v0 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![245], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![37], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  pads_S2000000_S2007040_070400 : S2000000.Pads (![0] : Fin 1 → Nat) ![7040] ![0] S2007040
  h_S_ : 0 < S_.numel
  shapeCasts_S2007040_S2007040x1 : S2007040.ShapeCasts S2007040x1
  bcast_S_S2007040 : S_.BroadcastsInDim S2007040 (![] : Fin 0 → Fin S2007040.rank)
  bcast_S2007040_S2007040x1_0 : S2007040.BroadcastsInDim S2007040x1 (![0] : Fin 1 → Fin S2007040x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S2007040x64_S2000000x64_0_0 : S2007040x64.Slices ![0, 0] S2000000x64
  bcast_S_S150000x64 : S_.BroadcastsInDim S150000x64 (![] : Fin 0 → Fin S150000x64.rank)
  pads_S150000x64_S151552x64_015520_000 : S150000x64.Pads (![0, 0] : Fin 2 → Nat) ![1552, 0] ![0, 0] S151552x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S151552x64_S150000x64_0_0 : S151552x64.Slices ![0, 0] S150000x64
  slices_S150000x64_S100000x64_0_0 : S150000x64.Slices ![0, 0] S100000x64
  slices_S150000x64_S50000x64_100000_0 : S150000x64.Slices ![100000, 0] S50000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2007040x1_S2007040x64_1_0_n_n_0_1_164_wf : GatherDims.WF S150000x64 S2007040x1 S2007040x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2007040x64.size a
  hwx0_0 : ∀ i : grid0.Coords, EltTy.bits .f32 = 32 ∨ (Rect.block (s := S2007040x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2007040x1.size a
  hwx0_1 : ∀ i : grid0.Coords, EltTy.bits .f32 = 32 ∨ (Rect.block (s := S2007040x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2007040x64.size a
  hwx0_2 : ∀ i : grid0.Coords, EltTy.bits .f32 = 32 ∨ (Rect.block (s := S2007040x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S2007040x64.size a
  hwx1_0 : ∀ i : grid1.Coords, EltTy.bits .f32 = 32 ∨ (Rect.block (s := S2007040x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S2007040x1.size a
  hwx1_1 : ∀ i : grid1.Coords, EltTy.bits .f32 = 32 ∨ (Rect.block (s := S2007040x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S2007040x64.size a
  hwx1_2 : ∀ i : grid1.Coords, EltTy.bits .f32 = 32 ∨ (Rect.block (s := S2007040x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S2007040x64.size a
  hwx2_0 : ∀ i : grid2.Coords, EltTy.bits .f32 = 32 ∨ (Rect.block (s := S2007040x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S2007040x1.size a
  hwx2_1 : ∀ i : grid2.Coords, EltTy.bits .f32 = 32 ∨ (Rect.block (s := S2007040x1) S8192x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S2007040x64.size a
  hwx2_2 : ∀ i : grid2.Coords, EltTy.bits .f32 = 32 ∨ (Rect.block (s := S2007040x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S151552x64.size a
  hwx3_0 : ∀ i : grid3.Coords, EltTy.bits .f32 = 32 ∨ (Rect.block (s := S151552x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S151552x64.size a
  hwx3_1 : ∀ i : grid3.Coords, EltTy.bits .f32 = 32 ∨ (Rect.block (s := S151552x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S151552x64.size a
  hwx3_2 : ∀ i : grid3.Coords, EltTy.bits .f32 = 32 ∨ (Rect.block (s := S151552x64) S4096x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S151552x64.size a
  hwx3_3 : ∀ i : grid3.Coords, EltTy.bits .f32 = 32 ∨ (Rect.block (s := S151552x64) S4096x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S151552x64.size a
  hwx3_4 : ∀ i : grid3.Coords, EltTy.bits .f32 = 32 ∨ (Rect.block (s := S151552x64) S4096x64.size (cc3_transform_4 i) (hinb3_4 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2007040x1_S2007040x64_1_0_n_n_0_1_164 : GatherDims S150000x64 S2007040x1 S2007040x64 where
  offsetDims := [1]
  collapsedSliceDims := [0]
  operandBatchingDims := []
  startIndicesBatchingDims := []
  startIndexMap := [0]
  indexVectorDim := 1
  sliceSizes := ![1, 64]
  wf := gather_S150000x64_S2007040x1_S2007040x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v42) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S4096x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v76) S4096x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S2x1000000 : Shape := ⟨2, ![2, 1000000]⟩
abbrev S150000x64 : Shape := ⟨2, ![150000, 64]⟩
abbrev S1x1000000 : Shape := ⟨2, ![1, 1000000]⟩
abbrev S1000000 : Shape := ⟨1, ![1000000]⟩
abbrev S_ : Shape := ⟨0, ![]⟩
abbrev S2000000 : Shape := ⟨1, ![2000000]⟩
abbrev S150000 : Shape := ⟨1, ![150000]⟩
abbrev S2000000x1 : Shape := ⟨2, ![2000000, 1]⟩
abbrev S2000000x64 : Shape := ⟨2, ![2000000, 64]⟩
abbrev S100000x64 : Shape := ⟨2, ![100000, 64]⟩
abbrev S50000x64 : Shape := ⟨2, ![50000, 64]⟩

abbrev nBuf : Space → Nat
  | .hbm => 103
  | .vmem => 0
  | .smem => 0
  | _ => 0

abbrev bufTy : (tb : Table) → Fin (tcTables nBuf tb) → BufTy
  | .hbm, ⟨0, _⟩ => ⟨S2x1000000, .i32⟩
  | .hbm, ⟨1, _⟩ => ⟨S150000x64, .f32⟩
  | .hbm, ⟨2, _⟩ => ⟨S1x1000000, .i32⟩
  | .hbm, ⟨3, _⟩ => ⟨S1000000, .i32⟩
  | .hbm, ⟨4, _⟩ => ⟨S1x1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S2000000, .i32⟩
  | .hbm, ⟨10, _⟩ => ⟨S2000000, .i32⟩
  | .hbm, ⟨11, _⟩ => ⟨S_, .f32⟩
  | .hbm, ⟨12, _⟩ => ⟨S2000000, .f32⟩
  | .hbm, ⟨13, _⟩ => ⟨S_, .f32⟩
  | .hbm, ⟨14, _⟩ => ⟨S150000, .f32⟩
  | .hbm, ⟨15, _⟩ => ⟨S2000000x1, .i32⟩
  | .hbm, ⟨16, _⟩ => ⟨S150000, .f32⟩
  | .hbm, ⟨17, _⟩ => ⟨S_, .f32⟩
  | .hbm, ⟨18, _⟩ => ⟨S150000, .f32⟩
  | .hbm, ⟨19, _⟩ => ⟨S150000, .i1⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000, .f32⟩
  | .hbm, ⟨24, _⟩ => ⟨S_, .f32⟩
  | .hbm, ⟨25, _⟩ => ⟨S_, .f32⟩
  | .hbm, ⟨26, _⟩ => ⟨S150000, .f32⟩
  | .hbm, ⟨27, _⟩ => ⟨S150000, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .f32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000, .f32⟩
  | .hbm, ⟨46, _⟩ => ⟨S2000000, .f32⟩
  | .hbm, ⟨47, _⟩ => ⟨S_, .i32⟩
  | .hbm, ⟨48, _⟩ => ⟨S2000000, .i32⟩
  | .hbm, ⟨49, _⟩ => ⟨S2000000, .i1⟩
  | .hbm, ⟨50, _⟩ => ⟨S_, .i32⟩
  | .hbm, ⟨51, _⟩ => ⟨S2000000, .i32⟩
  | .hbm, ⟨52, _⟩ => ⟨S2000000, .i32⟩
  | .hbm, ⟨53, _⟩ => ⟨S2000000, .i32⟩
  | .hbm, ⟨54, _⟩ => ⟨S2000000x1, .i32⟩
  | .hbm, ⟨55, _⟩ => ⟨S2000000x64, .f32⟩
  | .hbm, ⟨56, _⟩ => ⟨S2000000x1, .f32⟩
  | .hbm, ⟨57, _⟩ => ⟨S2000000x64, .f32⟩
  | .hbm, ⟨58, _⟩ => ⟨S2000000x64, .f32⟩
  | .hbm, ⟨59, _⟩ => ⟨S_, .f32⟩
  | .hbm, ⟨60, _⟩ => ⟨S150000x64, .f32⟩
  | .hbm, ⟨61, _⟩ => ⟨S2000000x1, .i32⟩
  | .hbm, ⟨62, _⟩ => ⟨S150000x64, .f32⟩
  | .hbm, ⟨63, _⟩ => ⟨S150000x64, .f32⟩
  | .hbm, ⟨64, _⟩ => ⟨S_, .i32⟩
  | .hbm, ⟨65, _⟩ => ⟨S2000000, .i32⟩
  | .hbm, ⟨66, _⟩ => ⟨S2000000, .i1⟩
  | .hbm, ⟨67, _⟩ => ⟨S_, .i32⟩
  | .hbm, ⟨68, _⟩ => ⟨S2000000, .i32⟩
  | .hbm, ⟨69, _⟩ => ⟨S2000000, .i32⟩
  | .hbm, ⟨70, _⟩ => ⟨S2000000, .i32⟩
  | .hbm, ⟨71, _⟩ => ⟨S2000000x1, .i32⟩
  | .hbm, ⟨72, _⟩ => ⟨S2000000x64, .f32⟩
  | .hbm, ⟨73, _⟩ => ⟨S2000000x1, .f32⟩
  | .hbm, ⟨74, _⟩ => ⟨S2000000x64, .f32⟩
  | .hbm, ⟨75, _⟩ => ⟨S2000000x64, .f32⟩
  | .hbm, ⟨76, _⟩ => ⟨S_, .f32⟩
  | .hbm, ⟨77, _⟩ => ⟨S150000x64, .f32⟩
  | .hbm, ⟨78, _⟩ => ⟨S2000000x1, .i32⟩
  | .hbm, ⟨79, _⟩ => ⟨S150000x64, .f32⟩
  | .hbm, ⟨80, _⟩ => ⟨S150000x64, .f32⟩
  | .hbm, ⟨81, _⟩ => ⟨S_, .i32⟩
  | .hbm, ⟨82, _⟩ => ⟨S2000000, .i32⟩
  | .hbm, ⟨83, _⟩ => ⟨S2000000, .i1⟩
  | .hbm, ⟨84, _⟩ => ⟨S_, .i32⟩
  | .hbm, ⟨85, _⟩ => ⟨S2000000, .i32⟩
  | .hbm, ⟨86, _⟩ => ⟨S2000000, .i32⟩
  | .hbm, ⟨87, _⟩ => ⟨S2000000, .i32⟩
  | .hbm, ⟨88, _⟩ => ⟨S2000000x1, .i32⟩
  | .hbm, ⟨89, _⟩ => ⟨S2000000x64, .f32⟩
  | .hbm, ⟨90, _⟩ => ⟨S2000000x1, .f32⟩
  | .hbm, ⟨91, _⟩ => ⟨S2000000x64, .f32⟩
  | .hbm, ⟨92, _⟩ => ⟨S2000000x64, .f32⟩
  | .hbm, ⟨93, _⟩ => ⟨S_, .f32⟩
  | .hbm, ⟨94, _⟩ => ⟨S150000x64, .f32⟩
  | .hbm, ⟨95, _⟩ => ⟨S2000000x1, .i32⟩
  | .hbm, ⟨96, _⟩ => ⟨S150000x64, .f32⟩
  | .hbm, ⟨97, _⟩ => ⟨S150000x64, .f32⟩
  | .hbm, ⟨98, _⟩ => ⟨S_, .f32⟩
  | .hbm, ⟨99, _⟩ => ⟨S150000x64, .f32⟩
  | .hbm, ⟨100, _⟩ => ⟨S150000x64, .f32⟩
  | .hbm, ⟨101, _⟩ => ⟨S100000x64, .f32⟩
  | .hbm, ⟨102, _⟩ => ⟨S50000x64, .f32⟩
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_14 : Ref sig .tc := ⟨.hbm, 81, rfl⟩
abbrev main_v61 : Ref sig .tc := ⟨.hbm, 82, rfl⟩
abbrev main_v62 : Ref sig .tc := ⟨.hbm, 83, rfl⟩
abbrev main_c_15 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  concatenates_S1000000_S1000000_S2000000_d0 : Shape.Concatenates [S1000000, S1000000] S2000000 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.KRun.lean ====
/-
  The idealized kernel's run, with its two results named.

  @main is twenty-two segments: eighteen stretches of host operations and four pipelined regions (three edge-wise
  products, one node-wise mean). The generated frame folds the buffer contents through the segments — `W0` the launch
  memory, `Wk+1` a stretch's operations applied to `Wk`, or a region's arrays replaced by what its write-backs
  leave — down to `W22`, the contents at the return, and reads only the two ARGUMENT arrays out of `W22`. The value
  claim needs the two RESULT arrays as well: the same launch over the same segments, with the final state read at
  the result buffers too. What `W22` holds there is the business of the modules that import this one.
-/
import proofs.«114679_j75531294867819_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with both result arrays at the last boundary's
    contents `W22` and both argument arrays as launched. -/
theorem run : θ_run defs (onTc (τ := τ) (main (F := F))) ⟨m, fun _ => 0, ρ⟩ (fun r => ∀ c : Dev nD,
      r.2.mem ((c.tc : Thread nD τ).loc main_v78) = W22 m ρ c (Proc.devRef .tc main_v78)
      ∧ r.2.mem ((c.tc : Thread nD τ).loc main_v79) = W22 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v78 (by decide)),
       h c _ (mem_uc main_v79 (by decide)),
       (h c _ (mem_uc main_arg0 (by decide))).trans (W22_main_arg0 m ρ c),
       (h c _ (mem_uc main_arg1 (by decide))).trans (W22_main_arg1 m ρ c)⟩)

end Cert.KernelIdeal.Run

end
-- ==== Proof.KVals.lean ====
/-
  What the kernel's program computes, stage by stage, as plain functions of its two argument arrays.

  The graph is a list of 1 000 000 (user, item) pairs `a0 : [2, 1000000]`; items are numbered after the 100 000 users.
  Every pair is read in both directions: `src` is the users followed by the items, `dst` the items followed by the
  users, 2 000 000 directed edges. `deg` counts the edges arriving at each of the 150 000 nodes (a scatter-add of
  ones), `dinv` is deg^(-1/2) where the degree is positive and 0 elsewhere, and edge `e` weighs
  `norm e = dinv[src e] · dinv[dst e]`.
  One layer sends along every edge the source node's row scaled by the edge's weight and adds up what arrives at each
  node. The program pads the edge list to 245 blocks of 8192 edges (edge number 0 and weight 0 in the padding),
  gathers the source rows of the padded list, multiplies row `e` by the weight in row `e` of the weight column
  block by block (`mulRows`: what the first three pipelined regions leave), cuts the padding off again and scatter-adds
  by `dst`. The result is the mean of the embedding and its three successive layers: the four arrays padded to 37
  blocks of 4096 rows, added and scaled by 1/4 block by block (`avg4`: the fourth region), the padding cut off, and
  the rows split into the users' and the items'.
-/
import proofs.«114679_j75531294867819_2_alg».proof.Proof.Gen.KernelIdeal
import Idealize.ShloMosaic.Lib.ValueIdx

noncomputable section

namespace Cert.KernelIdeal.Vals

open Cert.KernelIdeal Cert.KernelIdeal.Gen Idealize.ShloMosaic Idealize.ShloMosaic.ValueIdx

variable {F : FTy → Type} [FloatOps F]

abbrev Pairs (F : FTy → Type) [FloatOps F] := (⟨S2x1000000, .i32⟩ : BufTy).Contents (Elt F)
abbrev Rows (F : FTy → Type) [FloatOps F] := (⟨S150000x64, .f32⟩ : BufTy).Contents (Elt F)

/-- The users' column of the pair list. -/
def users (a0 : Pairs F) : (⟨S1000000, .i32⟩ : BufTy).Contents (Elt F) :=
  shapeCast _ (extractStridedSlice S1x1000000 ![0, 0] a0 slices_S2x1000000_S1x1000000_0_0) shapeCasts_S1x1000000_S1000000

/-- The items' column, numbered after the users. -/
def items (a0 : Pairs F) : (⟨S1000000, .i32⟩ : BufTy).Contents (Elt F) :=
  addi (shapeCast _ (extractStridedSlice S1x1000000 ![1, 0] a0 slices_S2x1000000_S1x1000000_1_0) shapeCasts_S1x1000000_S1000000)
    (broadcastInDim S1000000 ![] bcast_S_S1000000 (constantI S_ 32 100000#32))

/-- Where each directed edge starts. -/
def src (a0 : Pairs F) : (⟨S2000000, .i32⟩ : BufTy).Contents (Elt F) :=
  concatenate S2000000 0 [⟨S1000000, users a0⟩, ⟨S1000000, items a0⟩] concatenates_S1000000_S1000000_S2000000_d0

/-- Where each directed edge ends. -/
def dst (a0 : Pairs F) : (⟨S2000000, .i32⟩ : BufTy).Contents (Elt F) :=
  concatenate S2000000 0 [⟨S1000000, items a0⟩, ⟨S1000000, users a0⟩] concatenates_S1000000_S1000000_S2000000_d0

/-- The number of edges ending at each node. -/
def deg (a0 : Pairs F) : (⟨S150000, .f32⟩ : BufTy).Contents (Elt F) :=
  Host.scatterAdd scatter_S150000_S2000000x1_S2000000_n_0_0_1
    (broadcastInDim S150000 ![] bcast_S_S150000 (constant S_ .f32 0x00000000#32))
    (broadcastInDim S2000000x1 ![0] bcast_S2000000_S2000000x1_0 (dst a0))
    (broadcastInDim S2000000 ![] bcast_S_S2000000 (constant S_ .f32 0x3F800000#32))

/-- deg^(-1/2) at a node some edge ends at, 0 at the others. -/
def dinv (a0 : Pairs F) : (⟨S150000, .f32⟩ : BufTy).Contents (Elt F) :=
  select (cmpf (F := F) .ogt (deg a0) (broadcastInDim S150000 ![] bcast_S_S150000 (constant S_ .f32 0x00000000#32)))
    (Host.rsqrt (maximumf (deg a0) (broadcastInDim S150000 ![] bcast_S_S150000 (constant S_ .f32 0x3F800000#32))))
    (broadcastInDim S150000 ![] bcast_S_S150000 (id (constant S_ .f32 0x00000000#32)))

/-- A node number counted from the end (negative) is brought into range, over the 2 000 000 edges. -/
def wrap (v : (⟨S2000000, .i32⟩ : BufTy).Contents (Elt F)) : (⟨S2000000, .i32⟩ : BufTy).Contents (Elt F) :=
  select (cmpi .slt v (broadcastInDim S2000000 ![] bcast_S_S2000000 (constantI S_ 32 0#32)))
    (addi v (broadcastInDim S2000000 ![] bcast_S_S2000000 (constantI S_ 32 150000#32))) v

/-- The weight of each edge. -/
def norm (a0 : Pairs F) : (⟨S2000000, .f32⟩ : BufTy).Contents (Elt F) :=
  mulf (Host.gather gather_S150000_S2000000x1_S2000000_n_0_n_n_0_1_1 (dinv a0)
      (broadcastInDim S2000000x1 ![0] bcast_S2000000_S2000000x1_0 (wrap (src a0))))
    (Host.gather gather_S150000_S2000000x1_S2000000_n_0_n_n_0_1_1 (dinv a0)
      (broadcastInDim S2000000x1 ![0] bcast_S2000000_S2000000x1_0 (wrap (dst a0))))

/-- The weights padded to 245 blocks of 8192 edges. -/
def normP (a0 : Pairs F) : (⟨S2007040, .f32⟩ : BufTy).Contents (Elt F) :=
  pad S2007040 ![0] ![7040] ![0] (norm a0) (id (constant S_ .f32 0x00000000#32)) pads_S2000000_S2007040_070400 h_S_

/-- The edges' starts padded likewise. -/
def srcP (a0 : Pairs F) : (⟨S2007040, .i32⟩ : BufTy).Contents (Elt F) :=
  pad S2007040 ![0] ![7040] ![0] (src a0) (id (constantI S_ 32 0#32)) pads_S2000000_S2007040_070400 h_S_

/-- The padded weights as a column. -/
def norm2 (a0 : Pairs F) : (⟨S2007040x1, .f32⟩ : BufTy).Contents (Elt F) :=
  shapeCast _ (normP a0) shapeCasts_S2007040_S2007040x1

/-- The padded starts, brought into range, as a column of row numbers. -/
def colP (a0 : Pairs F) : (⟨S2007040x1, .i32⟩ : BufTy).Contents (Elt F) :=
  broadcastInDim S2007040x1 ![0] bcast_S2007040_S2007040x1_0
    (select (cmpi .slt (srcP a0) (broadcastInDim S2007040 ![] bcast_S_S2007040 (constantI S_ 32 0#32)))
      (addi (srcP a0) (broadcastInDim S2007040 ![] bcast_S_S2007040 (constantI S_ 32 150000#32))) (srcP a0))

/-- The source node's row of `x`, for every edge of the padded list. -/
def xg (a0 : Pairs F) (x : Rows F) : (⟨S2007040x64, .f32⟩ : BufTy).Contents (Elt F) :=
  Host.gather gather_S150000x64_S2007040x1_S2007040x64_1_0_n_n_0_1_164 x (colP a0)

/-- Row `e` of `g` scaled by the entry in row `e` of the column `n`. -/
def mulRows (g : (⟨S2007040x64, .f32⟩ : BufTy).Contents (Elt F)) (n : (⟨S2007040x1, .f32⟩ : BufTy).Contents (Elt F)) :
    (⟨S2007040x64, .f32⟩ : BufTy).Contents (Elt F) :=
  fun i => FloatOps.mulf (g i) (n (ix2 (⟨(i 0).val, (i 0).isLt⟩ : Fin 2007040) (0 : Fin 1)))

/-- One layer: the weighted source rows of the real edges summed at the node each edge ends at. -/
def layer (a0 : Pairs F) (x : Rows F) : Rows F :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 (dst a0))
    (extractStridedSlice S2000000x64 ![0, 0] (mulRows (xg a0 x) (norm2 a0)) slices_S2007040x64_S2000000x64_0_0)

/-- A node array padded to 37 blocks of 4096 rows. -/
def padN (x : Rows F) : (⟨S151552x64, .f32⟩ : BufTy).Contents (Elt F) :=
  pad S151552x64 ![0, 0] ![1552, 0] ![0, 0] x (sitofp .f32 (constantI S_ 32 0#32)) pads_S150000x64_S151552x64_015520_000 h_S_

/-- The four arrays added in order and scaled by the float 0.25. -/
def avg4 (p0 p1 p2 p3 : (⟨S151552x64, .f32⟩ : BufTy).Contents (Elt F)) : (⟨S151552x64, .f32⟩ : BufTy).Contents (Elt F) :=
  fun i => FloatOps.mulf (FloatOps.addf (FloatOps.addf (FloatOps.addf (p0 i) (p1 i)) (p2 i)) (p3 i)) (Scalar.ofBits .f32 0x3E800000#32)

/-- The mean of the embedding and its three layers, on the padded node axis. -/
def outP (a0 : Pairs F) (a1 : Rows F) : (⟨S151552x64, .f32⟩ : BufTy).Contents (Elt F) :=
  avg4 (padN a1) (padN (layer a0 a1)) (padN (layer a0 (layer a0 a1))) (padN (layer a0 (layer a0 (layer a0 a1))))

/-- The same with the padding cut off. -/
def out (a0 : Pairs F) (a1 : Rows F) : Rows F :=
  extractStridedSlice S150000x64 ![0, 0] (outP a0 a1) slices_S151552x64_S150000x64_0_0

/-- The users' rows. -/
def resUsers (a0 : Pairs F) (a1 : Rows F) : (⟨S100000x64, .f32⟩ : BufTy).Contents (Elt F) :=
  extractStridedSlice S100000x64 ![0, 0] (out a0 a1) slices_S150000x64_S100000x64_0_0

/-- The items' rows. -/
def resItems (a0 : Pairs F) (a1 : Rows F) : (⟨S50000x64, .f32⟩ : BufTy).Contents (Elt F) :=
  extractStridedSlice S50000x64 ![100000, 0] (out a0 a1) slices_S150000x64_S50000x64_100000_0

end Cert.KernelIdeal.Vals

end
-- ==== Proof.RegionMul0.lean ====
/-
  What each pipelined region leaves in its result array, as one function of what it finds in its input arrays.

  A region cuts its arrays into blocks of rows, one block per grid point, runs the body on the blocks of a point and
  writes the result block back. The three product regions take blocks of 8192 rows of the gathered source rows
  `[2007040, 64]` and of the weight column `[2007040, 1]`; the body multiplies every row by its weight (the column
  spread over the 64 lanes), so the result array is `mulRows` of the two input arrays: at block `t`, entry
  `(p, q)` is entry `(8192 t + p, q)` of the rows times entry `(8192 t + p, 0)` of the column. The mean region takes
  blocks of 4096 rows of four `[151552, 64]` arrays, adds them in order and scales by the float 0.25: `avg4`.
  In both the blocks tile the array (245 · 8192 = 2007040, 37 · 4096 = 151552), so the whole array is that function.
  Everything here is stated at an arbitrary content `V` of the buffers at the region's entry.
-/
import proofs.«114679_j75531294867819_2_alg».proof.Proof.Gen.KernelIdeal.Frame
import proofs.«114679_j75531294867819_2_alg».proof.Proof.KVals
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Vals
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz0 : (![0, 0] : Fin 2 → Nat) = fun _ => 0 := funext fun a => by fin_cases a <;> rfl

/-! ## Region 0: the edge-wise product -/

/-- The body's arithmetic at an entry: row `p` of the gathered block times the weight in row `p` of the column block. -/
theorem pay0_apply (x0 : Vec F S8192x64 .f32) (x1 : Vec F S8192x1 .f32) (p : Fin 8192) (q : Fin 64) :
    k0_pay1 x0 x1 (ix2 p q) = FloatOps.mulf (x0 (ix2 p q)) (x1 (ix2 p (0 : Fin 1))) := by
  unfold k0_pay1
  show FloatOps.mulf (shapeCast S8192x64 x0 shapeCasts_S8192x64_S8192x64 (ix2 p q))
    (broadcastTo S8192x64 (shapeCast S8192x1 x1 shapeCasts_S8192x1_S8192x1) broadcasts_S8192x1_S8192x64 (ix2 p q)) = _
  rw [shapeCast_self, shapeCast_self]
  refine congrArg (FloatOps.mulf (x0 (ix2 p q))) ?_
  refine broadcastTo_apply x1 broadcasts_S8192x1_S8192x64 (ix2 p q) (ix2 p (0 : Fin 1)) fun ax => ?_
  match ax with
  | ⟨0, _⟩ => rfl
  | ⟨1, _⟩ => rfl

/-- The three windows move together: block `t` of the gathered rows, of the weight column and of the result are rows
    `8192·t … 8192·t + 8191`. Decided over the 245 points. -/
theorem idx_facts0 : ∀ t : Fin cfg0.N, win0_0.index t (0 : Fin 2) = win0_2.index t (0 : Fin 2)
    ∧ win0_0.index t (1 : Fin 2) = 0 ∧ win0_1.index t (0 : Fin 2) = win0_2.index t (0 : Fin 2)
    ∧ win0_1.index t (1 : Fin 2) = 0 ∧ win0_2.index t (1 : Fin 2) = 0 ∧ win0_2.index t (0 : Fin 2) ≤ 244 :=
  (by decide +kernel : ∀ t : Fin grid0.N, _)

/-- Every block of rows is some point's. -/
theorem idx_onto0 : ∀ q0 : Fin 245, ∃ t : Fin cfg0.N, win0_2.index t = ![q0.val, 0] :=
  (by decide +kernel : ∀ q0 : Fin 245, ∃ t : Fin grid0.N, win0_2.index t = ![q0.val, 0])

/-- What point `t` writes back is block `t` of the row-scaled array. -/
theorem flushed0_eq (c : Dev nD) (t : Fin cfg0.N) :
    (dat0 V c).flushed 2 t = ((cfg0.win 2).blk t).view.read (Elt F) (mulRows (V c main_v42) (V c main_v35)) := by
  show (cfg0.win 2).cut (grid0.coords t) ((dat0 V c).after 2 t) = _
  rw [after0_2]
  unfold out0_2
  rw [View.canon_unit_zero hz0]
  simp only [View.ld_unit_zero (S := S8192x64) hz0, View.ld_unit_zero (S := S8192x1) hz0]
  obtain ⟨e0, e1, e2, e3, e4, e5⟩ := idx_facts0 t
  funext j
  obtain ⟨p, q, rfl⟩ : ∃ (p : Fin 8192) (q : Fin 64), j = ix2 p q := ⟨j 0, j 1, eq_ix2 j⟩
  refine (pay0_apply _ _ p q).trans ?_
  show FloatOps.mulf (V c main_v42 (((cfg0.win 0).blk t).view.emb (ix2 p q))) (V c main_v35 (((cfg0.win 1).blk t).view.emb (ix2 p (0 : Fin 1))))
    = mulRows (V c main_v42) (V c main_v35) (((cfg0.win 2).blk t).view.emb (ix2 p q))
  have h0 : ((cfg0.win 0).blk t).view.emb (ix2 p q) = ((cfg0.win 2).blk t).view.emb (ix2 p q) := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1))
      = ix2 (⟨(((cfg0.win 2).blk t).view.emb (ix2 p q) 0).val, (((cfg0.win 2).blk t).view.emb (ix2 p q) 0).isLt⟩ : Fin 2007040) (0 : Fin 1) := by
    funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 1 + 1 * 0 = 0; omega
  rw [h0, h1]
  rfl

/-- An index of the result array is in point `t`'s block iff each coordinate is in the block's range on its axis. -/
theorem mem_blk0 (t : Fin cfg0.N) (i : S2007040x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v43).slice (win0_2.rect t)).set ↔ _
  rw [View.set_slice_whole, Rect.mem_set_unit]
  exact Iff.rfl

/-- The 245 blocks of 8192 rows tile the 2 007 040 rows: row `r` is in block `r / 8192`. -/
theorem cover0 (i : S2007040x64.Idx) : ∃ t : Fin cfg0.N, (cfg0.win 2).flush t = true ∧ i ∈ ((cfg0.win 2).blk t).view.set := by
  have hi0 : (i 0).val < 2007040 := (i 0).isLt
  have hi1 : (i 1).val < 64 := (i 1).isLt
  obtain ⟨t, ht⟩ := idx_onto0 ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- The region's result array, whatever it finds in its buffers: the gathered rows scaled row by row. -/
theorem final0 (c : Dev nD) : (dat0 V c).arrAt 2 cfg0.N = mulRows (V c main_v42) (V c main_v35) :=
  (dat0 V c).arrAt_eq_of_cover 2 (mulRows (V c main_v42) (V c main_v35)) (fun t _ => flushed0_eq V c t) (cover0)

/-- Its two input arrays are left as found. -/
theorem kept0_0 (c : Dev nD) : (dat0 V c).arrAt 0 cfg0.N = V c main_v42 :=
  ((dat0 V c).arrAt_in 0 rfl cfg0.N).trans (A_eq0 V c 0)
theorem kept0_1 (c : Dev nD) : (dat0 V c).arrAt 1 cfg0.N = V c main_v35 :=
  ((dat0 V c).arrAt_in 1 rfl cfg0.N).trans (A_eq0 V c 1)

end Cert.KernelIdeal.Regions

end
-- ==== Proof.RegionMul1.lean ====
/-
  What each pipelined region leaves in its result array, as one function of what it finds in its input arrays.

  A region cuts its arrays into blocks of rows, one block per grid point, runs the body on the blocks of a point and
  writes the result block back. The three product regions take blocks of 8192 rows of the gathered source rows
  `[2007040, 64]` and of the weight column `[2007040, 1]`; the body multiplies every row by its weight (the column
  spread over the 64 lanes), so the result array is `mulRows` of the two input arrays: at block `t`, entry
  `(p, q)` is entry `(8192 t + p, q)` of the rows times entry `(8192 t + p, 0)` of the column. The mean region takes
  blocks of 4096 rows of four `[151552, 64]` arrays, adds them in order and scales by the float 0.25: `avg4`.
  In both the blocks tile the array (245 · 8192 = 2007040, 37 · 4096 = 151552), so the whole array is that function.
  Everything here is stated at an arbitrary content `V` of the buffers at the region's entry.
-/
import proofs.«114679_j75531294867819_2_alg».proof.Proof.Gen.KernelIdeal.Frame
import proofs.«114679_j75531294867819_2_alg».proof.Proof.KVals
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Vals
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-! ## Region 1: the edge-wise product -/

/-- The body's arithmetic at an entry: row `p` of the gathered block times the weight in row `p` of the column block. -/
theorem pay1_apply (x0 : Vec F S8192x64 .f32) (x1 : Vec F S8192x1 .f32) (p : Fin 8192) (q : Fin 64) :
    k1_pay1 x0 x1 (ix2 p q) = FloatOps.mulf (x0 (ix2 p q)) (x1 (ix2 p (0 : Fin 1))) := by
  unfold k1_pay1
  show FloatOps.mulf (shapeCast S8192x64 x0 shapeCasts_S8192x64_S8192x64 (ix2 p q))
    (broadcastTo S8192x64 (shapeCast S8192x1 x1 shapeCasts_S8192x1_S8192x1) broadcasts_S8192x1_S8192x64 (ix2 p q)) = _
  rw [shapeCast_self, shapeCast_self]
  refine congrArg (FloatOps.mulf (x0 (ix2 p q))) ?_
  refine broadcastTo_apply x1 broadcasts_S8192x1_S8192x64 (ix2 p q) (ix2 p (0 : Fin 1)) fun ax => ?_
  match ax with
  | ⟨0, _⟩ => rfl
  | ⟨1, _⟩ => rfl

/-- The three windows move together: block `t` of the gathered rows, of the weight column and of the result are rows
    `8192·t … 8192·t + 8191`. Decided over the 245 points. -/
theorem idx_facts1 : ∀ t : Fin cfg1.N, win1_0.index t (0 : Fin 2) = win1_2.index t (0 : Fin 2)
    ∧ win1_0.index t (1 : Fin 2) = 0 ∧ win1_1.index t (0 : Fin 2) = win1_2.index t (0 : Fin 2)
    ∧ win1_1.index t (1 : Fin 2) = 0 ∧ win1_2.index t (1 : Fin 2) = 0 ∧ win1_2.index t (0 : Fin 2) ≤ 244 :=
  (by decide +kernel : ∀ t : Fin grid1.N, _)

/-- Every block of rows is some point's. -/
theorem idx_onto1 : ∀ q0 : Fin 245, ∃ t : Fin cfg1.N, win1_2.index t = ![q0.val, 0] :=
  (by decide +kernel : ∀ q0 : Fin 245, ∃ t : Fin grid1.N, win1_2.index t = ![q0.val, 0])

/-- What point `t` writes back is block `t` of the row-scaled array. -/
theorem flushed1_eq (c : Dev nD) (t : Fin cfg1.N) :
    (dat1 V c).flushed 2 t = ((cfg1.win 2).blk t).view.read (Elt F) (mulRows (V c main_v54) (V c main_v35)) := by
  show (cfg1.win 2).cut (grid1.coords t) ((dat1 V c).after 2 t) = _
  rw [after1_2]
  unfold out1_2
  rw [View.canon_unit_zero hz1]
  simp only [View.ld_unit_zero (S := S8192x64) hz1, View.ld_unit_zero (S := S8192x1) hz1]
  obtain ⟨e0, e1, e2, e3, e4, e5⟩ := idx_facts1 t
  funext j
  obtain ⟨p, q, rfl⟩ : ∃ (p : Fin 8192) (q : Fin 64), j = ix2 p q := ⟨j 0, j 1, eq_ix2 j⟩
  refine (pay1_apply _ _ p q).trans ?_
  show FloatOps.mulf (V c main_v54 (((cfg1.win 0).blk t).view.emb (ix2 p q))) (V c main_v35 (((cfg1.win 1).blk t).view.emb (ix2 p (0 : Fin 1))))
    = mulRows (V c main_v54) (V c main_v35) (((cfg1.win 2).blk t).view.emb (ix2 p q))
  have h0 : ((cfg1.win 0).blk t).view.emb (ix2 p q) = ((cfg1.win 2).blk t).view.emb (ix2 p q) := by
    funext a; apply Fin.ext
    match a with
    | ⟨0, _⟩ => show win1_0.index t (0 : Fin 2) * 8192 + 1 * p.val = win1_2.index t (0 : Fin 2) * 8192 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 (⟨(((cfg1.win 2).blk t).view.emb (ix2 p q) 0).val, (((cfg1.win 2).blk t).view.emb (ix2 p q) 0).isLt⟩ : Fin 2007040) (0 : Fin 1) := by
    funext a; apply Fin.ext
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega
  rw [h0, h1]
  rfl

/-- An index of the result array is in point `t`'s block iff each coordinate is in the block's range on its axis. -/
theorem mem_blk1 (t : Fin cfg1.N) (i : S2007040x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v55).slice (win1_2.rect t)).set ↔ _
  rw [View.set_slice_whole, Rect.mem_set_unit]
  exact Iff.rfl

/-- The 245 blocks of 8192 rows tile the 2 007 040 rows: row `r` is in block `r / 8192`. -/
theorem cover1 (i : S2007040x64.Idx) : ∃ t : Fin cfg1.N, (cfg1.win 2).flush t = true ∧ i ∈ ((cfg1.win 2).blk t).view.set := by
  have hi0 : (i 0).val < 2007040 := (i 0).isLt
  have hi1 : (i 1).val < 64 := (i 1).isLt
  obtain ⟨t, ht⟩ := idx_onto1 ⟨(i 0).val / 8192, by omega⟩
  have q0 : win1_2.index t (0 : Fin 2) = (i 0).val / 8192 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- The region's result array, whatever it finds in its buffers: the gathered rows scaled row by row. -/
theorem final1 (c : Dev nD) : (dat1 V c).arrAt 2 cfg1.N = mulRows (V c main_v54) (V c main_v35) :=
  (dat1 V c).arrAt_eq_of_cover 2 (mulRows (V c main_v54) (V c main_v35)) (fun t _ => flushed1_eq V c t) (cover1)

/-- Its two input arrays are left as found. -/
theorem kept1_0 (c : Dev nD) : (dat1 V c).arrAt 0 cfg1.N = V c main_v54 :=
  ((dat1 V c).arrAt_in 0 rfl cfg1.N).trans (A_eq1 V c 0)
theorem kept1_1 (c : Dev nD) : (dat1 V c).arrAt 1 cfg1.N = V c main_v35 :=
  ((dat1 V c).arrAt_in 1 rfl cfg1.N).trans (A_eq1 V c 1)

end Cert.KernelIdeal.Regions

end
-- ==== Proof.RegionMul2.lean ====
/-
  What each pipelined region leaves in its result array, as one function of what it finds in its input arrays.

  A region cuts its arrays into blocks of rows, one block per grid point, runs the body on the blocks of a point and
  writes the result block back. The three product regions take blocks of 8192 rows of the gathered source rows
  `[2007040, 64]` and of the weight column `[2007040, 1]`; the body multiplies every row by its weight (the column
  spread over the 64 lanes), so the result array is `mulRows` of the two input arrays: at block `t`, entry
  `(p, q)` is entry `(8192 t + p, q)` of the rows times entry `(8192 t + p, 0)` of the column. The mean region takes
  blocks of 4096 rows of four `[151552, 64]` arrays, adds them in order and scales by the float 0.25: `avg4`.
  In both the blocks tile the array (245 · 8192 = 2007040, 37 · 4096 = 151552), so the whole array is that function.
  Everything here is stated at an arbitrary content `V` of the buffers at the region's entry.
-/
import proofs.«114679_j75531294867819_2_alg».proof.Proof.Gen.KernelIdeal.Frame
import proofs.«114679_j75531294867819_2_alg».proof.Proof.KVals
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Vals
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

/-! ## Region 2: the edge-wise product -/

/-- The body's arithmetic at an entry: row `p` of the gathered block times the weight in row `p` of the column block. -/
theorem pay2_apply (x0 : Vec F S8192x64 .f32) (x1 : Vec F S8192x1 .f32) (p : Fin 8192) (q : Fin 64) :
    k2_pay1 x0 x1 (ix2 p q) = FloatOps.mulf (x0 (ix2 p q)) (x1 (ix2 p (0 : Fin 1))) := by
  unfold k2_pay1
  show FloatOps.mulf (shapeCast S8192x64 x0 shapeCasts_S8192x64_S8192x64 (ix2 p q))
    (broadcastTo S8192x64 (shapeCast S8192x1 x1 shapeCasts_S8192x1_S8192x1) broadcasts_S8192x1_S8192x64 (ix2 p q)) = _
  rw [shapeCast_self, shapeCast_self]
  refine congrArg (FloatOps.mulf (x0 (ix2 p q))) ?_
  refine broadcastTo_apply x1 broadcasts_S8192x1_S8192x64 (ix2 p q) (ix2 p (0 : Fin 1)) fun ax => ?_
  match ax with
  | ⟨0, _⟩ => rfl
  | ⟨1, _⟩ => rfl

/-- The three windows move together: block `t` of the gathered rows, of the weight column and of the result are rows
    `8192·t … 8192·t + 8191`. Decided over the 245 points. -/
theorem idx_facts2 : ∀ t : Fin cfg2.N, win2_0.index t (0 : Fin 2) = win2_2.index t (0 : Fin 2)
    ∧ win2_0.index t (1 : Fin 2) = 0 ∧ win2_1.index t (0 : Fin 2) = win2_2.index t (0 : Fin 2)
    ∧ win2_1.index t (1 : Fin 2) = 0 ∧ win2_2.index t (1 : Fin 2) = 0 ∧ win2_2.index t (0 : Fin 2) ≤ 244 :=
  (by decide +kernel : ∀ t : Fin grid2.N, _)

/-- Every block of rows is some point's. -/
theorem idx_onto2 : ∀ q0 : Fin 245, ∃ t : Fin cfg2.N, win2_2.index t = ![q0.val, 0] :=
  (by decide +kernel : ∀ q0 : Fin 245, ∃ t : Fin grid2.N, win2_2.index t = ![q0.val, 0])

/-- What point `t` writes back is block `t` of the row-scaled array. -/
theorem flushed2_eq (c : Dev nD) (t : Fin cfg2.N) :
    (dat2 V c).flushed 2 t = ((cfg2.win 2).blk t).view.read (Elt F) (mulRows (V c main_v66) (V c main_v35)) := by
  show (cfg2.win 2).cut (grid2.coords t) ((dat2 V c).after 2 t) = _
  rw [after2_2]
  unfold out2_2
  rw [View.canon_unit_zero hz2]
  simp only [View.ld_unit_zero (S := S8192x64) hz2, View.ld_unit_zero (S := S8192x1) hz2]
  obtain ⟨e0, e1, e2, e3, e4, e5⟩ := idx_facts2 t
  funext j
  obtain ⟨p, q, rfl⟩ : ∃ (p : Fin 8192) (q : Fin 64), j = ix2 p q := ⟨j 0, j 1, eq_ix2 j⟩
  refine (pay2_apply _ _ p q).trans ?_
  show FloatOps.mulf (V c main_v66 (((cfg2.win 0).blk t).view.emb (ix2 p q))) (V c main_v35 (((cfg2.win 1).blk t).view.emb (ix2 p (0 : Fin 1))))
    = mulRows (V c main_v66) (V c main_v35) (((cfg2.win 2).blk t).view.emb (ix2 p q))
  have h0 : ((cfg2.win 0).blk t).view.emb (ix2 p q) = ((cfg2.win 2).blk t).view.emb (ix2 p q) := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1))
      = ix2 (⟨(((cfg2.win 2).blk t).view.emb (ix2 p q) 0).val, (((cfg2.win 2).blk t).view.emb (ix2 p q) 0).isLt⟩ : Fin 2007040) (0 : Fin 1) := by
    funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 1 + 1 * 0 = 0; omega
  rw [h0, h1]
  rfl

/-- An index of the result array is in point `t`'s block iff each coordinate is in the block's range on its axis. -/
theorem mem_blk2 (t : Fin cfg2.N) (i : S2007040x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v67).slice (win2_2.rect t)).set ↔ _
  rw [View.set_slice_whole, Rect.mem_set_unit]
  exact Iff.rfl

/-- The 245 blocks of 8192 rows tile the 2 007 040 rows: row `r` is in block `r / 8192`. -/
theorem cover2 (i : S2007040x64.Idx) : ∃ t : Fin cfg2.N, (cfg2.win 2).flush t = true ∧ i ∈ ((cfg2.win 2).blk t).view.set := by
  have hi0 : (i 0).val < 2007040 := (i 0).isLt
  have hi1 : (i 1).val < 64 := (i 1).isLt
  obtain ⟨t, ht⟩ := idx_onto2 ⟨(i 0).val / 8192, by omega⟩
  have q0 : win2_2.index t (0 : Fin 2) = (i 0).val / 8192 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 64 ≤ (i 1).val ∧ (i 1).val < win2_2.index t (1 : Fin 2) * 64 + 64; omega

/-- The region's result array, whatever it finds in its buffers: the gathered rows scaled row by row. -/
theorem final2 (c : Dev nD) : (dat2 V c).arrAt 2 cfg2.N = mulRows (V c main_v66) (V c main_v35) :=
  (dat2 V c).arrAt_eq_of_cover 2 (mulRows (V c main_v66) (V c main_v35)) (fun t _ => flushed2_eq V c t) (cover2)

/-- Its two input arrays are left as found. -/
theorem kept2_0 (c : Dev nD) : (dat2 V c).arrAt 0 cfg2.N = V c main_v66 :=
  ((dat2 V c).arrAt_in 0 rfl cfg2.N).trans (A_eq2 V c 0)
theorem kept2_1 (c : Dev nD) : (dat2 V c).arrAt 1 cfg2.N = V c main_v35 :=
  ((dat2 V c).arrAt_in 1 rfl cfg2.N).trans (A_eq2 V c 1)

end Cert.KernelIdeal.Regions

end
-- ==== Proof.RegionMean.lean ====
/-
  What each pipelined region leaves in its result array, as one function of what it finds in its input arrays.

  A region cuts its arrays into blocks of rows, one block per grid point, runs the body on the blocks of a point and
  writes the result block back. The three product regions take blocks of 8192 rows of the gathered source rows
  `[2007040, 64]` and of the weight column `[2007040, 1]`; the body multiplies every row by its weight (the column
  spread over the 64 lanes), so the result array is `mulRows` of the two input arrays: at block `t`, entry
  `(p, q)` is entry `(8192 t + p, q)` of the rows times entry `(8192 t + p, 0)` of the column. The mean region takes
  blocks of 4096 rows of four `[151552, 64]` arrays, adds them in order and scales by the float 0.25: `avg4`.
  In both the blocks tile the array (245 · 8192 = 2007040, 37 · 4096 = 151552), so the whole array is that function.
  Everything here is stated at an arbitrary content `V` of the buffers at the region's entry.
-/
import proofs.«114679_j75531294867819_2_alg».proof.Proof.Gen.KernelIdeal.Frame
import proofs.«114679_j75531294867819_2_alg».proof.Proof.KVals
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Vals
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

/-! ## Region 3: the node-wise mean -/

/-- The body's arithmetic at an entry: the four blocks added in order, times the float 0.25. -/
theorem pay3_apply (x0 x1 x2 x3 : Vec F S4096x64 .f32) (j : S4096x64.Idx) :
    k3_pay1 x0 x1 x2 x3 j = FloatOps.mulf (FloatOps.addf (FloatOps.addf (FloatOps.addf (x0 j) (x1 j)) (x2 j)) (x3 j)) (Scalar.ofBits .f32 0x3E800000#32) := by
  unfold k3_pay1
  simp only [shapeCast_self]
  rfl

/-- The five windows move together: block `t` of each array is rows `4096·t … 4096·t + 4095`. Decided over the 37 points. -/
theorem idx_facts3 : ∀ t : Fin cfg3.N, win3_0.index t (0 : Fin 2) = win3_4.index t (0 : Fin 2)
    ∧ win3_1.index t (0 : Fin 2) = win3_4.index t (0 : Fin 2) ∧ win3_2.index t (0 : Fin 2) = win3_4.index t (0 : Fin 2)
    ∧ win3_3.index t (0 : Fin 2) = win3_4.index t (0 : Fin 2)
    ∧ win3_0.index t (1 : Fin 2) = 0 ∧ win3_1.index t (1 : Fin 2) = 0 ∧ win3_2.index t (1 : Fin 2) = 0 ∧ win3_3.index t (1 : Fin 2) = 0
    ∧ win3_4.index t (1 : Fin 2) = 0 ∧ win3_4.index t (0 : Fin 2) ≤ 36 :=
  (by decide +kernel : ∀ t : Fin grid3.N, _)

/-- Every block of rows is some point's. -/
theorem idx_onto3 : ∀ q0 : Fin 37, ∃ t : Fin cfg3.N, win3_4.index t = ![q0.val, 0] :=
  (by decide +kernel : ∀ q0 : Fin 37, ∃ t : Fin grid3.N, win3_4.index t = ![q0.val, 0])

/-- What point `t` writes back is block `t` of the scaled sum of the four arrays. -/
theorem flushed3_eq (c : Dev nD) (t : Fin cfg3.N) :
    (dat3 V c).flushed 4 t = ((cfg3.win 4).blk t).view.read (Elt F) (avg4 (V c main_v72) (V c main_v73) (V c main_v74) (V c main_v75)) := by
  show (cfg3.win 4).cut (grid3.coords t) ((dat3 V c).after 4 t) = _
  rw [after3_4]
  unfold out3_4
  rw [View.canon_unit_zero hz3]
  simp only [View.ld_unit_zero (S := S4096x64) hz3]
  obtain ⟨e0, e1, e2, e3, e4, e5, e6, e7, e8, e9⟩ := idx_facts3 t
  funext j
  obtain ⟨p, q, rfl⟩ : ∃ (p : Fin 4096) (q : Fin 64), j = ix2 p q := ⟨j 0, j 1, eq_ix2 j⟩
  refine (pay3_apply _ _ _ _ (ix2 p q)).trans ?_
  show FloatOps.mulf (FloatOps.addf (FloatOps.addf (FloatOps.addf (V c main_v72 (((cfg3.win 0).blk t).view.emb (ix2 p q)))
      (V c main_v73 (((cfg3.win 1).blk t).view.emb (ix2 p q)))) (V c main_v74 (((cfg3.win 2).blk t).view.emb (ix2 p q))))
      (V c main_v75 (((cfg3.win 3).blk t).view.emb (ix2 p q)))) (Scalar.ofBits .f32 0x3E800000#32)
    = avg4 (V c main_v72) (V c main_v73) (V c main_v74) (V c main_v75) (((cfg3.win 4).blk t).view.emb (ix2 p q))
  have h0 : ((cfg3.win 0).blk t).view.emb (ix2 p q) = ((cfg3.win 4).blk t).view.emb (ix2 p q) := by
    funext a; apply Fin.ext
    match a with
    | ⟨0, _⟩ => show win3_0.index t (0 : Fin 2) * 4096 + 1 * p.val = win3_4.index t (0 : Fin 2) * 4096 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 4096 + 1 * p.val = win3_4.index t (0 : Fin 2) * 4096 + 1 * p.val; omega
    | ⟨1, _⟩ => show win3_1.index t (1 : Fin 2) * 64 + 1 * q.val = win3_4.index t (1 : Fin 2) * 64 + 1 * q.val; omega
  have h2 : ((cfg3.win 2).blk t).view.emb (ix2 p q) = ((cfg3.win 4).blk t).view.emb (ix2 p q) := by
    funext a; apply Fin.ext
    match a with
    | ⟨0, _⟩ => show win3_2.index t (0 : Fin 2) * 4096 + 1 * p.val = win3_4.index t (0 : Fin 2) * 4096 + 1 * p.val; omega
    | ⟨1, _⟩ => show win3_2.index t (1 : Fin 2) * 64 + 1 * q.val = win3_4.index t (1 : Fin 2) * 64 + 1 * q.val; omega
  have h3 : ((cfg3.win 3).blk t).view.emb (ix2 p q) = ((cfg3.win 4).blk t).view.emb (ix2 p q) := by
    funext a; apply Fin.ext
    match a with
    | ⟨0, _⟩ => show win3_3.index t (0 : Fin 2) * 4096 + 1 * p.val = win3_4.index t (0 : Fin 2) * 4096 + 1 * p.val; omega
    | ⟨1, _⟩ => show win3_3.index t (1 : Fin 2) * 64 + 1 * q.val = win3_4.index t (1 : Fin 2) * 64 + 1 * q.val; omega
  rw [h0, h1, h2, h3]
  rfl

/-- An index of the result array is in point `t`'s block iff each coordinate is in the block's range on its axis. -/
theorem mem_blk3 (t : Fin cfg3.N) (i : S151552x64.Idx) :
    i ∈ ((cfg3.win 4).blk t).view.set ↔ ∀ a : Fin 2, win3_4.index t a * S4096x64.size a ≤ (i a).val ∧ (i a).val < win3_4.index t a * S4096x64.size a + S4096x64.size a := by
  show i ∈ ((View.whole main_v76).slice (win3_4.rect t)).set ↔ _
  rw [View.set_slice_whole, Rect.mem_set_unit]
  exact Iff.rfl

/-- The 37 blocks of 4096 rows tile the 151 552 rows: row `r` is in block `r / 4096`. -/
theorem cover3 (i : S151552x64.Idx) : ∃ t : Fin cfg3.N, (cfg3.win 4).flush t = true ∧ i ∈ ((cfg3.win 4).blk t).view.set := by
  have hi0 : (i 0).val < 151552 := (i 0).isLt
  have hi1 : (i 1).val < 64 := (i 1).isLt
  obtain ⟨t, ht⟩ := idx_onto3 ⟨(i 0).val / 4096, by omega⟩
  have q0 : win3_4.index t (0 : Fin 2) = (i 0).val / 4096 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 4096 ≤ (i 0).val ∧ (i 0).val < win3_4.index t (0 : Fin 2) * 4096 + 4096; omega
  | ⟨1, _⟩ => show win3_4.index t (1 : Fin 2) * 64 ≤ (i 1).val ∧ (i 1).val < win3_4.index t (1 : Fin 2) * 64 + 64; omega

/-- The region's result array, whatever it finds in its buffers: the scaled sum of its four input arrays. -/
theorem final3 (c : Dev nD) : (dat3 V c).arrAt 4 cfg3.N = avg4 (V c main_v72) (V c main_v73) (V c main_v74) (V c main_v75) :=
  (dat3 V c).arrAt_eq_of_cover 4 (avg4 (V c main_v72) (V c main_v73) (V c main_v74) (V c main_v75)) (fun t _ => flushed3_eq V c t) (cover3)

end Cert.KernelIdeal.Regions

end
-- ==== Proof.Chain.lean ====
/-
  The contents of the kernel program's buffers at each boundary between its segments, read as the stage functions of
  the two argument arrays.

  The generated frame names the contents after every segment: `W7` when the first product region is entered, `W8`
  when it is left, `W9` at the second region's entry, … `W20` / `W21` around the mean region, `W22` at the return.
  A stretch of host operations is read off operation by operation; a region replaces its result array by what the
  region lemmas say (`mulRows`, `avg4` of what it finds) and leaves every other buffer alone. Writing `Y1`, `Y2`, `Y3`
  for one, two and three layers applied to the embedding: the k-th product region finds the gathered rows of
  `Y(k-1)` and the weight column and leaves their row-wise product, the scatter-add after it makes `Yk`, and the mean
  region finds the four arrays padded and leaves `outP`.
-/
import proofs.«114679_j75531294867819_2_alg».proof.Proof.Gen.KernelIdeal.Frame
import proofs.«114679_j75531294867819_2_alg».proof.Proof.KVals
import proofs.«114679_j75531294867819_2_alg».proof.Proof.RegionMul0
import proofs.«114679_j75531294867819_2_alg».proof.Proof.RegionMul1
import proofs.«114679_j75531294867819_2_alg».proof.Proof.RegionMul2
import proofs.«114679_j75531294867819_2_alg».proof.Proof.RegionMean

set_option maxRecDepth 16384

noncomputable section

namespace Cert.KernelIdeal.Chain

open Cert.KernelIdeal Cert.KernelIdeal.Gen Cert.KernelIdeal.Vals Cert.KernelIdeal.Regions
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The pair list and the embedding as launched on core `c`. -/
abbrev A0 (c : Dev nD) : Pairs F := m ((c : Thread nD τ).loc main_arg0)
abbrev A1 (c : Dev nD) : Rows F := m ((c : Thread nD τ).loc main_arg1)
/-- One, two and three layers applied to the embedding. -/
abbrev Y1 (c : Dev nD) : Rows F := layer (A0 m c) (A1 m c)
abbrev Y2 (c : Dev nD) : Rows F := layer (A0 m c) (Y1 m c)
abbrev Y3 (c : Dev nD) : Rows F := layer (A0 m c) (Y2 m c)

/-! ## At the first region's entry -/

theorem c7_v42 (c : Dev nD) : W7 m ρ c (Proc.devRef .tc main_v42) = xg (A0 m c) (A1 m c) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v42) = _
  after_results_simp
  rfl
theorem c7_v35 (c : Dev nD) : W7 m ρ c (Proc.devRef .tc main_v35) = norm2 (A0 m c) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v35) = _
  after_results_simp
  rfl
theorem c7_v7 (c : Dev nD) : W7 m ρ c (Proc.devRef .tc main_v7) = dst (A0 m c) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v7) = _
  after_results_simp
  rfl
theorem c7_v34 (c : Dev nD) : W7 m ρ c (Proc.devRef .tc main_v34) = srcP (A0 m c) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v34) = _
  after_results_simp
  rfl
theorem c7_arg1 (c : Dev nD) : W7 m ρ c (Proc.devRef .tc main_arg1) = A1 m c := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg1) = _
  after_results_simp

/-! ## At region 0's exit -/

theorem c8_v43 (c : Dev nD) : W8 m ρ c (Proc.devRef .tc main_v43) = mulRows (xg (A0 m c) (A1 m c)) (norm2 (A0 m c)) := by
  refine (W8_arr m ρ c 2).trans ((final0 (V7 m ρ) c).trans ?_)
  show mulRows (W7 m ρ c (Proc.devRef .tc main_v42)) (W7 m ρ c (Proc.devRef .tc main_v35)) = _
  rw [c7_v42 m ρ c, c7_v35 m ρ c]
theorem c8_v35 (c : Dev nD) : W8 m ρ c (Proc.devRef .tc main_v35) = norm2 (A0 m c) :=
  (W8_arr m ρ c 1).trans ((kept0_1 (V7 m ρ) c).trans (c7_v35 m ρ c))
theorem c8_v7 (c : Dev nD) : W8 m ρ c (Proc.devRef .tc main_v7) = dst (A0 m c) :=
  (W8_of_ne m ρ c main_v7 (by decide)).trans (c7_v7 m ρ c)
theorem c8_v34 (c : Dev nD) : W8 m ρ c (Proc.devRef .tc main_v34) = srcP (A0 m c) :=
  (W8_of_ne m ρ c main_v34 (by decide)).trans (c7_v34 m ρ c)
theorem c8_arg1 (c : Dev nD) : W8 m ρ c (Proc.devRef .tc main_arg1) = A1 m c :=
  (W8_of_ne m ρ c main_arg1 (by decide)).trans (c7_arg1 m ρ c)

/-! ## At the second region's entry -/

theorem c9_v47 (c : Dev nD) : W9 m ρ c (Proc.devRef .tc main_v47) = Y1 m c := by
  show StableHlo.after hostOps1 (W8 m ρ c) (Proc.devRef .tc main_v47) = _
  after_results_simp
  rw [c8_v7 m ρ c, c8_v43 m ρ c]
  rfl
theorem c9_v54 (c : Dev nD) : W9 m ρ c (Proc.devRef .tc main_v54) = xg (A0 m c) (Y1 m c) := by
  show StableHlo.after hostOps1 (W8 m ρ c) (Proc.devRef .tc main_v54) = _
  after_results_simp
  rw [c8_v7 m ρ c, c8_v43 m ρ c, c8_v34 m ρ c]
  rfl
theorem c9_v35 (c : Dev nD) : W9 m ρ c (Proc.devRef .tc main_v35) = norm2 (A0 m c) := by
  show StableHlo.after hostOps1 (W8 m ρ c) (Proc.devRef .tc main_v35) = _
  after_results_simp
  rw [c8_v35 m ρ c]
theorem c9_v7 (c : Dev nD) : W9 m ρ c (Proc.devRef .tc main_v7) = dst (A0 m c) := by
  show StableHlo.after hostOps1 (W8 m ρ c) (Proc.devRef .tc main_v7) = _
  after_results_simp
  rw [c8_v7 m ρ c]
theorem c9_v34 (c : Dev nD) : W9 m ρ c (Proc.devRef .tc main_v34) = srcP (A0 m c) := by
  show StableHlo.after hostOps1 (W8 m ρ c) (Proc.devRef .tc main_v34) = _
  after_results_simp
  rw [c8_v34 m ρ c]
theorem c9_arg1 (c : Dev nD) : W9 m ρ c (Proc.devRef .tc main_arg1) = A1 m c := by
  show StableHlo.after hostOps1 (W8 m ρ c) (Proc.devRef .tc main_arg1) = _
  after_results_simp
  rw [c8_arg1 m ρ c]

/-! ## At region 1's exit -/

theorem c10_v55 (c : Dev nD) : W10 m ρ c (Proc.devRef .tc main_v55) = mulRows (xg (A0 m c) (Y1 m c)) (norm2 (A0 m c)) := by
  refine (W10_arr m ρ c 2).trans ((final1 (V9 m ρ) c).trans ?_)
  show mulRows (W9 m ρ c (Proc.devRef .tc main_v54)) (W9 m ρ c (Proc.devRef .tc main_v35)) = _
  rw [c9_v54 m ρ c, c9_v35 m ρ c]
theorem c10_v35 (c : Dev nD) : W10 m ρ c (Proc.devRef .tc main_v35) = norm2 (A0 m c) :=
  (W10_arr m ρ c 1).trans ((kept1_1 (V9 m ρ) c).trans (c9_v35 m ρ c))
theorem c10_v47 (c : Dev nD) : W10 m ρ c (Proc.devRef .tc main_v47) = Y1 m c :=
  (W10_of_ne m ρ c main_v47 (by decide)).trans (c9_v47 m ρ c)
theorem c10_v7 (c : Dev nD) : W10 m ρ c (Proc.devRef .tc main_v7) = dst (A0 m c) :=
  (W10_of_ne m ρ c main_v7 (by decide)).trans (c9_v7 m ρ c)
theorem c10_v34 (c : Dev nD) : W10 m ρ c (Proc.devRef .tc main_v34) = srcP (A0 m c) :=
  (W10_of_ne m ρ c main_v34 (by decide)).trans (c9_v34 m ρ c)
theorem c10_arg1 (c : Dev nD) : W10 m ρ c (Proc.devRef .tc main_arg1) = A1 m c :=
  (W10_of_ne m ρ c main_arg1 (by decide)).trans (c9_arg1 m ρ c)

/-! ## At the third region's entry -/

theorem c11_v59 (c : Dev nD) : W11 m ρ c (Proc.devRef .tc main_v59) = Y2 m c := by
  show StableHlo.after hostOps2 (W10 m ρ c) (Proc.devRef .tc main_v59) = _
  after_results_simp
  rw [c10_v7 m ρ c, c10_v55 m ρ c]
  rfl
theorem c11_v66 (c : Dev nD) : W11 m ρ c (Proc.devRef .tc main_v66) = xg (A0 m c) (Y2 m c) := by
  show StableHlo.after hostOps2 (W10 m ρ c) (Proc.devRef .tc main_v66) = _
  after_results_simp
  rw [c10_v7 m ρ c, c10_v55 m ρ c, c10_v34 m ρ c]
  rfl
theorem c11_v35 (c : Dev nD) : W11 m ρ c (Proc.devRef .tc main_v35) = norm2 (A0 m c) := by
  show StableHlo.after hostOps2 (W10 m ρ c) (Proc.devRef .tc main_v35) = _
  after_results_simp
  rw [c10_v35 m ρ c]
theorem c11_v47 (c : Dev nD) : W11 m ρ c (Proc.devRef .tc main_v47) = Y1 m c := by
  show StableHlo.after hostOps2 (W10 m ρ c) (Proc.devRef .tc main_v47) = _
  after_results_simp
  rw [c10_v47 m ρ c]
theorem c11_v7 (c : Dev nD) : W11 m ρ c (Proc.devRef .tc main_v7) = dst (A0 m c) := by
  show StableHlo.after hostOps2 (W10 m ρ c) (Proc.devRef .tc main_v7) = _
  after_results_simp
  rw [c10_v7 m ρ c]
theorem c11_arg1 (c : Dev nD) : W11 m ρ c (Proc.devRef .tc main_arg1) = A1 m c := by
  show StableHlo.after hostOps2 (W10 m ρ c) (Proc.devRef .tc main_arg1) = _
  after_results_simp
  rw [c10_arg1 m ρ c]

/-! ## At region 2's exit -/

theorem c12_v67 (c : Dev nD) : W12 m ρ c (Proc.devRef .tc main_v67) = mulRows (xg (A0 m c) (Y2 m c)) (norm2 (A0 m c)) := by
  refine (W12_arr m ρ c 2).trans ((final2 (V11 m ρ) c).trans ?_)
  show mulRows (W11 m ρ c (Proc.devRef .tc main_v66)) (W11 m ρ c (Proc.devRef .tc main_v35)) = _
  rw [c11_v66 m ρ c, c11_v35 m ρ c]
theorem c12_v35 (c : Dev nD) : W12 m ρ c (Proc.devRef .tc main_v35) = norm2 (A0 m c) :=
  (W12_arr m ρ c 1).trans ((kept2_1 (V11 m ρ) c).trans (c11_v35 m ρ c))
theorem c12_v47 (c : Dev nD) : W12 m ρ c (Proc.devRef .tc main_v47) = Y1 m c :=
  (W12_of_ne m ρ c main_v47 (by decide)).trans (c11_v47 m ρ c)
theorem c12_v59 (c : Dev nD) : W12 m ρ c (Proc.devRef .tc main_v59) = Y2 m c :=
  (W12_of_ne m ρ c main_v59 (by decide)).trans (c11_v59 m ρ c)
theorem c12_v7 (c : Dev nD) : W12 m ρ c (Proc.devRef .tc main_v7) = dst (A0 m c) :=
  (W12_of_ne m ρ c main_v7 (by decide)).trans (c11_v7 m ρ c)
theorem c12_arg1 (c : Dev nD) : W12 m ρ c (Proc.devRef .tc main_arg1) = A1 m c :=
  (W12_of_ne m ρ c main_arg1 (by decide)).trans (c11_arg1 m ρ c)

/-! ## At the mean region's entry -/

theorem c20_v72 (c : Dev nD) : W20 m ρ c (Proc.devRef .tc main_v72) = padN (A1 m c) := by
  show StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W12 m ρ c)))))))) (Proc.devRef .tc main_v72) = _
  after_results_simp
  rw [c12_arg1 m ρ c]
  rfl
theorem c20_v73 (c : Dev nD) : W20 m ρ c (Proc.devRef .tc main_v73) = padN (Y1 m c) := by
  show StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W12 m ρ c)))))))) (Proc.devRef .tc main_v73) = _
  after_results_simp
  rw [c12_v47 m ρ c]
  rfl
theorem c20_v74 (c : Dev nD) : W20 m ρ c (Proc.devRef .tc main_v74) = padN (Y2 m c) := by
  show StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W12 m ρ c)))))))) (Proc.devRef .tc main_v74) = _
  after_results_simp
  rw [c12_v59 m ρ c]
  rfl
theorem c20_v75 (c : Dev nD) : W20 m ρ c (Proc.devRef .tc main_v75) = padN (Y3 m c) := by
  show StableHlo.after hostOps3_7 (StableHlo.after hostOps3_6 (StableHlo.after hostOps3_5 (StableHlo.after hostOps3_4 (StableHlo.after hostOps3_3 (StableHlo.after hostOps3_2 (StableHlo.after hostOps3_1 (StableHlo.after hostOps3 (W12 m ρ c)))))))) (Proc.devRef .tc main_v75) = _
  after_results_simp
  rw [c12_v7 m ρ c, c12_v67 m ρ c]
  rfl

/-! ## At the mean region's exit, and at the return -/

theorem c21_v76 (c : Dev nD) : W21 m ρ c (Proc.devRef .tc main_v76) = outP (A0 m c) (A1 m c) := by
  refine (W21_arr m ρ c 4).trans ((final3 (V20 m ρ) c).trans ?_)
  show avg4 (W20 m ρ c (Proc.devRef .tc main_v72)) (W20 m ρ c (Proc.devRef .tc main_v73)) (W20 m ρ c (Proc.devRef .tc main_v74)) (W20 m ρ c (Proc.devRef .tc main_v75)) = _
  rw [c20_v72 m ρ c, c20_v73 m ρ c, c20_v74 m ρ c, c20_v75 m ρ c]
  rfl

/-- The users' result at the return. -/
theorem c22_v78 (c : Dev nD) : W22 m ρ c (Proc.devRef .tc main_v78) = resUsers (A0 m c) (A1 m c) := by
  show StableHlo.after hostOps4 (W21 m ρ c) (Proc.devRef .tc main_v78) = _
  after_results_simp
  rw [c21_v76 m ρ c]
  rfl
/-- The items' result at the return. -/
theorem c22_v79 (c : Dev nD) : W22 m ρ c (Proc.devRef .tc main_v79) = resItems (A0 m c) (A1 m c) := by
  show StableHlo.after hostOps4 (W21 m ρ c) (Proc.devRef .tc main_v79) = _
  after_results_simp
  rw [c21_v76 m ρ c]
  rfl

end Cert.KernelIdeal.Chain

end
-- ==== Proof.RefVals.lean ====
/-
  What the reference program computes, stage by stage, as plain functions of its two argument arrays: the same
  directed edges `src`, `dst`, degrees, inverse square roots and edge weights `norm` as the kernel's program, then a
  layer as the source rows gathered over the 2 000 000 edges, each scaled by its edge's weight (the weights spread as
  a column over the 64 lanes), and summed at the node the edge ends at; the result is the embedding plus its three
  successive layers, divided by the float 4, split into the users' and the items' rows. The generated run's two
  result terms are these functions of the argument arrays, by unfolding.
-/
import proofs.«114679_j75531294867819_2_alg».proof.Proof.RefRunP

noncomputable section

namespace Cert.ReferenceIdeal.Vals

open Cert.ReferenceIdeal Cert.ReferenceIdeal.Gen Idealize.ShloMosaic Idealize.ShloMosaic.TcCoe Idealize.SL.Sem

variable {F : FTy → Type} [FloatOps F]

abbrev Pairs (F : FTy → Type) [FloatOps F] := (⟨S2x1000000, .i32⟩ : BufTy).Contents (Elt F)
abbrev Rows (F : FTy → Type) [FloatOps F] := (⟨S150000x64, .f32⟩ : BufTy).Contents (Elt F)

/-- The users' column of the pair list. -/
def users (a0 : Pairs F) : (⟨S1000000, .i32⟩ : BufTy).Contents (Elt F) :=
  shapeCast _ (extractStridedSlice S1x1000000 ![0, 0] a0 slices_S2x1000000_S1x1000000_0_0) shapeCasts_S1x1000000_S1000000

/-- The items' column, numbered after the users. -/
def items (a0 : Pairs F) : (⟨S1000000, .i32⟩ : BufTy).Contents (Elt F) :=
  addi (shapeCast _ (extractStridedSlice S1x1000000 ![1, 0] a0 slices_S2x1000000_S1x1000000_1_0) shapeCasts_S1x1000000_S1000000)
    (broadcastInDim S1000000 ![] bcast_S_S1000000 (constantI S_ 32 100000#32))

/-- Where each directed edge starts. -/
def src (a0 : Pairs F) : (⟨S2000000, .i32⟩ : BufTy).Contents (Elt F) :=
  concatenate S2000000 0 [⟨S1000000, users a0⟩, ⟨S1000000, items a0⟩] concatenates_S1000000_S1000000_S2000000_d0

/-- Where each directed edge ends. -/
def dst (a0 : Pairs F) : (⟨S2000000, .i32⟩ : BufTy).Contents (Elt F) :=
  concatenate S2000000 0 [⟨S1000000, items a0⟩, ⟨S1000000, users a0⟩] concatenates_S1000000_S1000000_S2000000_d0

/-- The number of edges ending at each node. -/
def deg (a0 : Pairs F) : (⟨S150000, .f32⟩ : BufTy).Contents (Elt F) :=
  Host.scatterAdd scatter_S150000_S2000000x1_S2000000_n_0_0_1
    (broadcastInDim S150000 ![] bcast_S_S150000 (constant S_ .f32 0x00000000#32))
    (broadcastInDim S2000000x1 ![0] bcast_S2000000_S2000000x1_0 (dst a0))
    (broadcastInDim S2000000 ![] bcast_S_S2000000 (constant S_ .f32 0x3F800000#32))

/-- deg^(-1/2) at a node some edge ends at, 0 at the others. -/
def dinv (a0 : Pairs F) : (⟨S150000, .f32⟩ : BufTy).Contents (Elt F) :=
  select (cmpf (F := F) .ogt (deg a0) (broadcastInDim S150000 ![] bcast_S_S150000 (constant S_ .f32 0x00000000#32)))
    (Host.rsqrt (maximumf (deg a0) (broadcastInDim S150000 ![] bcast_S_S150000 (constant S_ .f32 0x3F800000#32))))
    (broadcastInDim S150000 ![] bcast_S_S150000 (id (constant S_ .f32 0x00000000#32)))

/-- A node number counted from the end (negative) is brought into range, over the 2 000 000 edges. -/
def wrap (v : (⟨S2000000, .i32⟩ : BufTy).Contents (Elt F)) : (⟨S2000000, .i32⟩ : BufTy).Contents (Elt F) :=
  select (cmpi .slt v (broadcastInDim S2000000 ![] bcast_S_S2000000 (constantI S_ 32 0#32)))
    (addi v (broadcastInDim S2000000 ![] bcast_S_S2000000 (constantI S_ 32 150000#32))) v

/-- The weight of each edge. -/
def norm (a0 : Pairs F) : (⟨S2000000, .f32⟩ : BufTy).Contents (Elt F) :=
  mulf (Host.gather gather_S150000_S2000000x1_S2000000_n_0_n_n_0_1_1 (dinv a0)
      (broadcastInDim S2000000x1 ![0] bcast_S2000000_S2000000x1_0 (wrap (src a0))))
    (Host.gather gather_S150000_S2000000x1_S2000000_n_0_n_n_0_1_1 (dinv a0)
      (broadcastInDim S2000000x1 ![0] bcast_S2000000_S2000000x1_0 (wrap (dst a0))))

/-- One layer: the source rows of the edges, each scaled by its edge's weight, summed at the node the edge ends at. -/
def layer (a0 : Pairs F) (x : Rows F) : Rows F :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 (dst a0))
    (mulf (Host.gather gather_S150000x64_S2000000x1_S2000000x64_1_0_n_n_0_1_164 x
        (broadcastInDim S2000000x1 ![0] bcast_S2000000_S2000000x1_0 (wrap (src a0))))
      (broadcastInDim S2000000x64 ![0, 1] bcast_S2000000x1_S2000000x64_0_1
        (broadcastInDim S2000000x1 ![0] bcast_S2000000_S2000000x1_0 (norm a0))))

/-- The embedding plus its three layers, divided by the float 4. -/
def total (a0 : Pairs F) (a1 : Rows F) : Rows F :=
  Host.divf (addf (addf (addf a1 (layer a0 a1)) (layer a0 (layer a0 a1))) (layer a0 (layer a0 (layer a0 a1))))
    (broadcastInDim S150000x64 ![] bcast_S_S150000x64 (constant S_ .f32 0x40800000#32))

/-- The users' rows. -/
def resUsers (a0 : Pairs F) (a1 : Rows F) : (⟨S100000x64, .f32⟩ : BufTy).Contents (Elt F) :=
  extractStridedSlice S100000x64 ![0, 0] (total a0 a1) slices_S150000x64_S100000x64_0_0

/-- The items' rows. -/
def resItems (a0 : Pairs F) (a1 : Rows F) : (⟨S50000x64, .f32⟩ : BufTy).Contents (Elt F) :=
  extractStridedSlice S50000x64 ![100000, 0] (total a0 a1) slices_S150000x64_S50000x64_100000_0

set_option maxRecDepth 8192 in
/-- The run's first result term is the users' rows of the arguments as launched. -/
theorem res_users_eq (m : (ℓ : Loc nD τ sig) → Buf (Elt F) ℓ) (c : Dev nD) :
    Cert.ReferenceIdeal.ValueP.res_main_v77 m c
      = resUsers (m ((c.tc : Thread nD τ).loc main_arg0)) (m ((c.tc : Thread nD τ).loc main_arg1)) := by
  unfold Cert.ReferenceIdeal.ValueP.res_main_v77; rfl

set_option maxRecDepth 8192 in
/-- The run's second result term is the items' rows. -/
theorem res_items_eq (m : (ℓ : Loc nD τ sig) → Buf (Elt F) ℓ) (c : Dev nD) :
    Cert.ReferenceIdeal.ValueP.res_main_v78 m c
      = resItems (m ((c.tc : Thread nD τ).loc main_arg0)) (m ((c.tc : Thread nD τ).loc main_arg1)) := by
  unfold Cert.ReferenceIdeal.ValueP.res_main_v78; rfl

end Cert.ReferenceIdeal.Vals

end
-- ==== Proof.LibEdgeSum.lean ====
/-
  Sums over the edges of a graph, as the host's gather and scatter-add spell them.

  An edge list is a column `idx : [E, 1]` of node numbers (32-bit words read SIGNED). A scatter-add of per-edge updates
  into an array indexed by node — `[N]` from updates `[E]`, or `[N, C]` from updates `[E, C]`, each update row added
  at the row its edge names, an edge naming a row outside `0 … N-1` dropped — is, at the exact (extended-real) reading,
  the operand plus the SUM OVER THE EDGES THAT LAND ON THE ROW (`scatterAdd1_apply`, `scatterAdd2_apply`, over
  `into idx n`, the edges whose word is `n`); a gather of rows reads the row the edge names, clamped into `0 … N-1`
  (`gather1_apply`, `gather2_apply`, `row`). The one law of the extended reals a degree-normalised aggregation needs
  is `scale_sum`: a factor `c` moves into a sum over a finite set when the set is empty (both sides are then zero,
  whatever `c` is) or `c` is a real number ≥ 0 — and the inverse square root of the set's size is one or the other
  (`rsqrt_count`). `agg_eq` puts these together: scaling the gathered rows by `dis` before the sum and the sum by
  `dis` after it is the sum of the rows weighted by `dis[src] · dis[dst]`, for ANY rows. Beside them, the small reads
  such a proof meets: a list spread as a column or a row over a rank-2 array (`bcast_col_apply`, `bcast_cols_apply`,
  `bcast_row_apply`, `bcast_rows_apply`), a node number counted from the end (`wrap_of_nonneg`), and a plain
  `[M, K] × [K, P]` host product at an index as the sum over `k` (`plain_dot_apply`).
-/
import Idealize.ShloMosaic.PureOps.Ideal
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibEdgeSum

open Idealize.ShloMosaic Idealize.ShloMosaic.ValueIdx

variable {N E C w : Nat}

/-! ## The dimension numbers -/

/-- Scatter into `[N]` at one index column `[E, 1]`, updates `[E]`. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter of rows into `[N, C]` at one index column `[E, 1]`, updates `[E, C]`. -/
abbrev scat2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Gather from `[N]` at one index column `[E, 1]`, result `[E]`. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of rows from `[N, C]` at one index column `[E, 1]`, result `[E, C]`. -/
abbrev gath2 (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The node edge `e` names, as a signed integer. -/
abbrev key (idx : IVec ⟨2, ![E, 1]⟩ w) (e : Fin E) : Int := (idx (ix2 e (0 : Fin 1))).toInt

/-! ## Where an update lands -/

theorem scat1_start (wf) (idx : IVec ⟨2, ![E, 1]⟩ w) (e : Fin E) (a : Fin 1) :
    (scat1 N E wf).start (ix1 e) idx a = key idx e := by
  obtain rfl : a = 0 := Subsingleton.elim _ _
  unfold ScatterDims.start
  rw [dif_pos (List.mem_singleton.mpr rfl)]
  have hsi : (scat1 N E wf).siIdx (ix1 e) ⟨List.idxOf (0 : Fin 1) (scat1 N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The axes kept by `Shape.kept` are the ones not listed. -/
theorem mem_kept {s : Shape} (l : List (Fin s.rank)) (a : Fin s.rank) : a ∈ s.kept l ↔ a ∉ l := by
  simp [Shape.kept]

theorem scat1_window (wf) (e : Fin E) (a : Fin 1) : (scat1 N E wf).window (ix1 e) a = 0 := by
  unfold ScatterDims.window
  rw [dif_neg]
  obtain rfl : a = 0 := Subsingleton.elim _ _
  exact fun h => (mem_kept _ _).1 h (List.mem_singleton.mpr rfl)

/-- An update of the rank-1 scatter lands on row `n` exactly when its edge names `n`. -/
theorem scat1_resultIdx (wf) (idx : IVec ⟨2, ![E, 1]⟩ w) (e : Fin E) (n : Fin N) :
    (scat1 N E wf).resultIdx? (ix1 e) idx = some (ix1 n) ↔ key idx e = (n.val : Int) := by
  unfold ScatterDims.resultIdx?
  simp only [scat1_start, scat1_window, Nat.cast_zero, Int.add_zero]
  constructor
  · intro h
    split at h
    · rename_i hc
      have h0 := congrArg (fun v => ((v 0 : Fin _) : Nat)) (Option.some.inj h)
      have hk := (hc 0).1
      change (key idx e).toNat = n.val at h0
      omega
    · cases h
  · intro hk
    have hc : ∀ a : Fin 1, 0 ≤ key idx e ∧ key idx e < (((⟨1, ![N]⟩ : Shape).size a : Nat) : Int) := by
      intro a; obtain rfl : a = 0 := Subsingleton.elim _ _
      refine ⟨by omega, ?_⟩
      show key idx e < (N : Int)
      have := n.isLt; omega
    rw [dif_pos hc]
    congr 1
    funext a; obtain rfl : a = 0 := Subsingleton.elim _ _
    refine Fin.ext ?_
    show (key idx e).toNat = n.val
    omega

theorem scat2_start0 (wf) (idx : IVec ⟨2, ![E, 1]⟩ w) (e : Fin E) (f : Fin C) :
    (scat2 N E C wf).start (ix2 e f) idx (0 : Fin 2) = key idx e := by
  unfold ScatterDims.start
  rw [dif_pos (List.mem_singleton.mpr rfl)]
  have hsi : (scat2 N E C wf).siIdx (ix2 e f) ⟨List.idxOf (0 : Fin 2) (scat2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat2_start1 (wf) (idx : IVec ⟨2, ![E, 1]⟩ w) (e : Fin E) (f : Fin C) :
    (scat2 N E C wf).start (ix2 e f) idx (1 : Fin 2) = 0 := by
  unfold ScatterDims.start
  rw [dif_neg (show (1 : Fin 2) ∉ [(0 : Fin 2)] by decide)]

theorem scat2_window0 (wf) (e : Fin E) (f : Fin C) : (scat2 N E C wf).window (ix2 e f) (0 : Fin 2) = 0 := by
  unfold ScatterDims.window
  rw [dif_neg]
  exact fun h => (mem_kept _ _).1 h (List.mem_singleton.mpr rfl)

theorem scat2_window1 (wf) (e : Fin E) (f : Fin C) : (scat2 N E C wf).window (ix2 e f) (1 : Fin 2) = f.val := by
  unfold ScatterDims.window
  rw [dif_pos ((mem_kept _ _).2 (show (1 : Fin 2) ∉ [(0 : Fin 2)] by decide))]
  rfl

/-- An update row of the rank-2 scatter lands on `(n, f)` exactly when its edge names `n` and it is column `f`. -/
theorem scat2_resultIdx (wf) (idx : IVec ⟨2, ![E, 1]⟩ w) (e : Fin E) (f' : Fin C) (n : Fin N) (f : Fin C) :
    (scat2 N E C wf).resultIdx? (ix2 e f') idx = some (ix2 n f) ↔ key idx e = (n.val : Int) ∧ f' = f := by
  unfold ScatterDims.resultIdx?
  constructor
  · intro h
    split at h
    · rename_i hc
      have hv := Option.some.inj h
      have h0 : ((scat2 N E C wf).start (ix2 e f') idx 0 + ((scat2 N E C wf).window (ix2 e f') 0 : Nat)).toNat = n.val :=
        congrArg (fun v => ((v 0 : Fin _) : Nat)) hv
      have h1 : ((scat2 N E C wf).start (ix2 e f') idx 1 + ((scat2 N E C wf).window (ix2 e f') 1 : Nat)).toNat = f.val :=
        congrArg (fun v => ((v 1 : Fin _) : Nat)) hv
      have hk := (hc 0).1
      rw [scat2_start0, scat2_window0] at h0 hk
      rw [scat2_start1, scat2_window1] at h1
      exact ⟨by omega, Fin.ext (by omega)⟩
    · cases h
  · rintro ⟨hk, rfl⟩
    have hn := n.isLt
    have hf := f'.isLt
    have hc : ∀ a : Fin 2, 0 ≤ (scat2 N E C wf).start (ix2 e f') idx a + ((scat2 N E C wf).window (ix2 e f') a : Nat) ∧
        (scat2 N E C wf).start (ix2 e f') idx a + ((scat2 N E C wf).window (ix2 e f') a : Nat)
          < (((⟨2, ![N, C]⟩ : Shape).size a : Nat) : Int) := by
      intro a
      match a with
      | ⟨0, _⟩ =>
        show 0 ≤ (scat2 N E C wf).start (ix2 e f') idx 0 + ((scat2 N E C wf).window (ix2 e f') 0 : Nat) ∧
          (scat2 N E C wf).start (ix2 e f') idx 0 + ((scat2 N E C wf).window (ix2 e f') 0 : Nat) < (N : Int)
        rw [scat2_start0, scat2_window0]; omega
      | ⟨1, _⟩ =>
        show 0 ≤ (scat2 N E C wf).start (ix2 e f') idx 1 + ((scat2 N E C wf).window (ix2 e f') 1 : Nat) ∧
          (scat2 N E C wf).start (ix2 e f') idx 1 + ((scat2 N E C wf).window (ix2 e f') 1 : Nat) < (C : Int)
        rw [scat2_start1, scat2_window1]; omega
    rw [dif_pos hc]
    congr 1
    funext a
    refine Fin.ext ?_
    match a with
    | ⟨0, _⟩ =>
      show ((scat2 N E C wf).start (ix2 e f') idx 0 + ((scat2 N E C wf).window (ix2 e f') 0 : Nat)).toNat = n.val
      rw [scat2_start0, scat2_window0]; omega
    | ⟨1, _⟩ =>
      show ((scat2 N E C wf).start (ix2 e f') idx 1 + ((scat2 N E C wf).window (ix2 e f') 1 : Nat)).toNat = f'.val
      rw [scat2_start1, scat2_window1]; omega

/-! ## A scatter-add read at an index: the operand plus the sum over the edges that land there -/

/-- The edges naming node `n`. -/
abbrev into (idx : IVec ⟨2, ![E, 1]⟩ w) (n : Fin N) : Finset (Fin E) :=
  Finset.univ.filter fun e => key idx e = (n.val : Int)

/-- A rank-1 index set is its one coordinate's range. -/
def idxEquiv1 {n : Nat} : Fin n ≃ (⟨1, ![n]⟩ : Shape).Idx where
  toFun e := ix1 e
  invFun j := j 0
  left_inv _ := rfl
  right_inv j := (eq_ix1 j).symm

theorem scatterAdd1_apply (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n) = x (ix1 n) + ∑ e ∈ into idx n, upd (ix1 e) := by
  unfold Ideal.hostScatterAdd
  congr 1
  rw [Finset.sum_filter, Finset.sum_filter]
  refine (Fintype.sum_equiv idxEquiv1 _ _ fun e => ?_).symm
  show (if key idx e = (n.val : Int) then upd (ix1 e) else 0)
    = if (scat1 N E wf).resultIdx? (ix1 e) idx = some (ix1 n) then upd (ix1 e) else 0
  simp only [scat1_resultIdx]

theorem scatterAdd2_apply (wf) (x : (⟨2, ![N, C]⟩ : Shape).Idx → EReal) (idx : IVec ⟨2, ![E, 1]⟩ w)
    (upd : (⟨2, ![E, C]⟩ : Shape).Idx → EReal) (n : Fin N) (f : Fin C) :
    Ideal.hostScatterAdd (scat2 N E C wf) x idx upd (ix2 n f) = x (ix2 n f) + ∑ e ∈ into idx n, upd (ix2 e f) := by
  unfold Ideal.hostScatterAdd
  congr 1
  rw [Finset.sum_filter, Finset.sum_filter, sum_idx2]
  refine Finset.sum_congr rfl fun e _ => ?_
  simp only [scat2_resultIdx]
  by_cases hP : key idx e = (n.val : Int)
  · simp only [hP, true_and, if_true]
    rw [Finset.sum_ite_eq' Finset.univ f (fun b => upd (ix2 e b))]
    simp
  · simp only [hP, false_and, if_false, Finset.sum_const_zero]

/-! ## A gather of rows read at an index -/

/-- The row edge `e` reads: the node it names, clamped into `0 … N-1`. -/
def row (hN : 0 < N) (idx : IVec ⟨2, ![E, 1]⟩ w) (e : Fin E) : Fin N := ⟨min (key idx e).toNat (N - 1), by omega⟩

/-- An edge that names a node of the graph reads that node's row. -/
theorem row_of_key (hN : 0 < N) (idx : IVec ⟨2, ![E, 1]⟩ w) (e : Fin E) (n : Fin N) (h : key idx e = (n.val : Int)) :
    row hN idx e = n := by
  refine Fin.ext ?_
  show min (key idx e).toNat (N - 1) = n.val
  have := n.isLt
  omega

theorem gather1_apply {α : Type} (hN : 0 < N) (wf) (x : (⟨1, ![N]⟩ : Shape).Idx → α) (idx : IVec ⟨2, ![E, 1]⟩ w) (e : Fin E) :
    Host.gather (gath1 N E wf) x idx (ix1 e) = x (ix1 (row hN idx e)) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gather2_apply {α : Type} (hN : 0 < N) (wf) (x : (⟨2, ![N, C]⟩ : Shape).Idx → α) (idx : IVec ⟨2, ![E, 1]⟩ w)
    (e : Fin E) (f : Fin C) :
    Host.gather (gath2 N E C wf) x idx (ix2 e f) = x (ix2 (row hN idx e) f) := by
  unfold Host.gather
  congr 1
  funext a
  refine Fin.ext ?_
  match a with
  | ⟨0, _⟩ =>
    show (gath2 N E C wf).start (ix2 e f) idx 0 + (gath2 N E C wf).batchCoord (ix2 e f) 0
      + (gath2 N E C wf).offCoord (ix2 e f) 0 = min (key idx e).toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N E C wf).startIndexMap from List.mem_singleton.mpr rfl)]
    have hsi : (gath2 N E C wf).siIdx (ix2 e f) ⟨List.idxOf (0 : Fin 2) (gath2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N E C wf).start (ix2 e f) idx 1 + (gath2 N E C wf).batchCoord (ix2 e f) 1
      + (gath2 N E C wf).offCoord (ix2 e f) 1 = f.val
    have hs : (gath2 N E C wf).start (ix2 e f) idx 1 = 0 := by
      unfold GatherDims.start
      rw [dif_neg (show (1 : Fin 2) ∉ [(0 : Fin 2)] by decide)]
    have ho : (gath2 N E C wf).offCoord (ix2 e f) 1 = f.val := by
      unfold GatherDims.offCoord
      rw [dif_pos ((GatherDims.mem_sKept _ _).2 ⟨show (1 : Fin 2) ∉ [(0 : Fin 2)] by decide, List.not_mem_nil⟩)]
      rfl
    rw [GatherDims.batchCoord_eq_zero _ _ _ List.not_mem_nil, hs, ho]
    omega

/-! ## The law: a factor moves into a sum over a finite set -/

theorem coe_nonneg_mul_sum {ι : Type} (S : Finset ι) (g : ι → EReal) (r : ℝ) (hr : 0 ≤ r) :
    (r : EReal) * ∑ e ∈ S, g e = ∑ e ∈ S, (r : EReal) * g e := by
  classical
  induction S using Finset.induction_on with
  | empty => simp
  | insert a S ha ih =>
    rw [Finset.sum_insert ha, Finset.sum_insert ha,
      EReal.left_distrib_of_nonneg_of_ne_top (EReal.coe_nonneg.2 hr) (EReal.coe_ne_top r), ih]

/-- `c · (0 + Σ_S g) = 0 + Σ_S g'` when `c · g e = g' e` on `S` and `c` is a real number ≥ 0 unless `S` is empty:
    over an empty set both sides are `0` whatever `c` is (`+∞ · 0 = 0` on the extended reals), and a real factor ≥ 0
    distributes over any extended-real sum. -/
theorem scale_sum {ι : Type} (S : Finset ι) (g g' : ι → EReal) (c : EReal)
    (hc : S.Nonempty → ∃ r : ℝ, 0 ≤ r ∧ c = (r : EReal)) (h : ∀ e ∈ S, c * g e = g' e) :
    c * (0 + ∑ e ∈ S, g e) = 0 + ∑ e ∈ S, g' e := by
  rw [zero_add, zero_add]
  rcases S.eq_empty_or_nonempty with rfl | hS
  · simp
  · obtain ⟨r, hr, rfl⟩ := hc hS
    rw [coe_nonneg_mul_sum S g r hr]
    exact Finset.sum_congr rfl h

/-- The inverse square root of the size of a nonempty finite set (counted as a sum of ones) is a real number ≥ 0. -/
theorem rsqrt_count {ι : Type} (S : Finset ι) (hS : S.Nonempty) :
    ∃ r : ℝ, 0 ≤ r ∧ Ideal.rsqrt (0 + ∑ _e ∈ S, (1 : EReal)) = (r : EReal) := by
  have h1 : (0 : EReal) + ∑ _e ∈ S, (1 : EReal) = ((S.card : ℝ) : EReal) := by
    rw [zero_add, Finset.sum_const, EReal.nsmul_eq_mul, mul_one]; rfl
  rw [h1]
  have hpos : (0 : ℝ) < S.card := by exact_mod_cast hS.card_pos
  refine ⟨(Real.sqrt S.card)⁻¹, inv_nonneg.2 (Real.sqrt_nonneg _), ?_⟩
  rw [Ideal.rsqrt_coe, if_neg (not_lt.2 hpos.le), if_neg hpos.ne']

/-- The words `1.0` and `+0.0` at the exact reading. -/
theorem ofBits_one : Ideal.ofBits .f32 0x3F800000#32 = 1 := by
  simp [Ideal.ofBits, Ideal.ieee, -EReal.coe_mul]; norm_num

/-! ## Columns and rows spread over a rank-2 array, read at an index -/

section Spread
variable {α : Type} {A B : Nat}

/-- `[A] → [A, 1]`: a list as a column. -/
theorem bcast_col_apply (h : (⟨1, ![A]⟩ : Shape).BroadcastsInDim ⟨2, ![A, 1]⟩ ![0]) (v : (⟨1, ![A]⟩ : Shape).Idx → α) (a : Fin A) :
    broadcastInDim ⟨2, ![A, 1]⟩ ![0] h v (ix2 a (0 : Fin 1)) = v (ix1 a) := by
  refine broadcastInDim_apply _ h v _ (ix1 a) fun b => ?_
  obtain rfl : b = 0 := Subsingleton.elim _ _
  show a.val = if A = 1 then 0 else a.val
  split
  · have := a.isLt; omega
  · rfl

/-- `[A, 1] → [A, B]`: a column repeated along the rows. -/
theorem bcast_cols_apply (h : (⟨2, ![A, 1]⟩ : Shape).BroadcastsInDim ⟨2, ![A, B]⟩ ![0, 1]) (v : (⟨2, ![A, 1]⟩ : Shape).Idx → α)
    (a : Fin A) (b : Fin B) :
    broadcastInDim ⟨2, ![A, B]⟩ ![0, 1] h v (ix2 a b) = v (ix2 a (0 : Fin 1)) := by
  refine broadcastInDim_apply _ h v _ (ix2 a (0 : Fin 1)) fun c => ?_
  match c with
  | ⟨0, _⟩ =>
    show a.val = if A = 1 then 0 else a.val
    split
    · have := a.isLt; omega
    · rfl
  | ⟨1, _⟩ =>
    show (0 : Nat) = if (1 : Nat) = 1 then 0 else b.val
    rfl

/-- `[B] → [1, B]`: a list as a row. -/
theorem bcast_row_apply (h : (⟨1, ![B]⟩ : Shape).BroadcastsInDim ⟨2, ![1, B]⟩ ![1]) (v : (⟨1, ![B]⟩ : Shape).Idx → α) (b : Fin B) :
    broadcastInDim ⟨2, ![1, B]⟩ ![1] h v (ix2 (0 : Fin 1) b) = v (ix1 b) := by
  refine broadcastInDim_apply _ h v _ (ix1 b) fun c => ?_
  obtain rfl : c = 0 := Subsingleton.elim _ _
  show b.val = if B = 1 then 0 else b.val
  split
  · have := b.isLt; omega
  · rfl

/-- `[1, B] → [A, B]`: a row repeated down the columns. -/
theorem bcast_rows_apply (h : (⟨2, ![1, B]⟩ : Shape).BroadcastsInDim ⟨2, ![A, B]⟩ ![0, 1]) (v : (⟨2, ![1, B]⟩ : Shape).Idx → α)
    (a : Fin A) (b : Fin B) :
    broadcastInDim ⟨2, ![A, B]⟩ ![0, 1] h v (ix2 a b) = v (ix2 (0 : Fin 1) b) := by
  refine broadcastInDim_apply _ h v _ (ix2 (0 : Fin 1) b) fun c => ?_
  match c with
  | ⟨0, _⟩ =>
    show (0 : Nat) = if (1 : Nat) = 1 then 0 else a.val
    rfl
  | ⟨1, _⟩ =>
    show b.val = if B = 1 then 0 else b.val
    split
    · have := b.isLt; omega
    · rfl

end Spread

/-! ## Node numbers counted from the end -/

/-- A word that is not negative as a signed integer is kept by `select (v < 0) (v + n) v`. -/
theorem wrap_of_nonneg (v c : BitVec 32) (h : 0 ≤ v.toInt) :
    Scalar.select (IntOp.cmpi .slt v 0#32) (IntOp.addi v c) v = v := by
  have hs : IntOp.cmpi .slt v 0#32 = 0#1 := by
    unfold IntOp.cmpi
    have : v.slt 0#32 = false := by
      rw [BitVec.slt]; simp only [BitVec.toInt_zero]; exact decide_eq_false (by omega)
    rw [this]; rfl
  rw [hs]; exact select_zero _ _

/-! ## The two spellings of a degree-normalised aggregation agree -/

/-- With `dis = (number of edges arriving)^(-1/2)` (`hdis`) and every edge that arrives at `n` reading row `n` through its
    wrapped destination (`hD'`): scaling the rows by `dis` before the sum and the sum by `dis n` after it is the sum of the
    rows each weighted by `dis[src] · dis[dst]`. The rows `h` are arbitrary extended reals. -/
theorem agg_eq (hN : 0 < N) (D S' D' : IVec ⟨2, ![E, 1]⟩ w) (disv : (⟨1, ![N]⟩ : Shape).Idx → EReal)
    (hdis : ∀ n : Fin N, disv (ix1 n) = Ideal.rsqrt (0 + ∑ _e ∈ into D n, (1 : EReal)))
    (hD' : ∀ (n : Fin N) (e : Fin E), key D e = (n.val : Int) → row hN D' e = n)
    (h : (⟨2, ![N, C]⟩ : Shape).Idx → EReal) (n : Fin N) (f : Fin C) :
    disv (ix1 n) * (0 + ∑ e ∈ into D n, h (ix2 (row hN S' e) f) * disv (ix1 (row hN S' e)))
      = 0 + ∑ e ∈ into D n, h (ix2 (row hN S' e) f) * (disv (ix1 (row hN S' e)) * disv (ix1 (row hN D' e))) := by
  refine scale_sum (into D n) _ _ (disv (ix1 n)) (fun hS => ?_) (fun e he => ?_)
  · rw [hdis]; exact rsqrt_count _ hS
  · rw [hD' n e (Finset.mem_filter.1 he).2, mul_left_comm, mul_comm (disv (ix1 n))]

/-! ## A plain matrix product on the host, read at an index -/

/-- `[M, K] × [K, P]` contracted over the one shared axis: entry `(r, c)` is `Σ_k x[r, k] · w[k, c]`. -/
theorem plain_dot_apply {M K P : Nat} {φ₁ φ₂ : FTy} (prec : Option ContractPrecision) (sched : HostSchedule)
    (x : FVec Ideal ⟨2, ![M, K]⟩ φ₁) (y : FVec Ideal ⟨2, ![K, P]⟩ φ₂) (r : Fin M) (c : Fin P) :
    FloatOps.dotGeneral (DotDims.plain M K P) prec sched x y (ix2 r c) = ∑ k : Fin K, x (ix2 r k) * y (ix2 k c) := by
  rw [Ideal.dotGeneral_apply]
  rw [← Equiv.sum_comp (contrEquiv1 (DotDims.plain M K P) K rfl rfl).symm]
  refine Finset.sum_congr rfl fun k _ => ?_
  have hl : (DotDims.plain M K P).lhsIdx (ix2 r c) ((contrEquiv1 (DotDims.plain M K P) K rfl rfl).symm k) = ix2 r k := by
    funext a; refine Fin.ext ?_
    match a with
    | ⟨0, _⟩ => rfl
    | ⟨1, _⟩ =>
      exact ((DotDims.plain M K P).lhsIdx_val_of_single (cl := 1) rfl _ _).trans
        (contrEquiv1_symm_val (DotDims.plain M K P) K rfl rfl k)
  have hr : (DotDims.plain M K P).rhsIdx (ix2 r c) ((contrEquiv1 (DotDims.plain M K P) K rfl rfl).symm k) = ix2 k c := by
    funext a; refine Fin.ext ?_
    match a with
    | ⟨0, _⟩ =>
      exact ((DotDims.plain M K P).rhsIdx_val_of_single (cr := 0) rfl _ _).trans
        (contrEquiv1_symm_val (DotDims.plain M K P) K rfl rfl k)
    | ⟨1, _⟩ => rfl
  rw [hl, hr]

/-! ## The host operations' names at the exact reading -/

section Names
variable {s si su sl sr so : Shape} {φ φ₁ φ₂ : FTy}

theorem hostScatterAdd_eq (d : ScatterDims s si su) (x : FVec Ideal s φ) (idx : IVec si w) (upd : FVec Ideal su φ) :
    Host.scatterAdd d x idx upd = Ideal.hostScatterAdd d x idx upd := rfl

theorem hostRsqrt_apply (x : FVec Ideal s φ) (i : s.Idx) : Host.rsqrt x i = Ideal.rsqrt (x i) := rfl

end Names

end Cert.LibEdgeSum

end
-- ==== Proof.Bridge.lean ====
/-
  The two programs compute one function of the argument arrays, at the exact (extended-real) reading.

  Both build the same directed edges, degrees and edge weights from the pair list, by the same operations. A layer
  differs only in how the weighted source rows are made. The reference gathers the source rows of the 2 000 000 edges
  and scales row `e` by `norm e`. The kernel's program pads the edge list with 7040 more entries (edge 0, weight 0),
  gathers the rows of the padded list, scales row `e` by the padded weight column at `e`, and cuts the 7040 rows off
  again: at a real edge `e` the padded start is the start, so the gathered row is the same row, and the padded weight is
  the weight — the entries in the padding are never read. So the two layers are one function (`layer_eq`), and so
  are their iterates. At the end the reference divides the sum of the embedding and its three layers by the float 4;
  the kernel's program pads the four arrays with 1552 rows, adds them in the same order, multiplies by the float
  0.25 and cuts the padding off: at a real row the padded arrays are the arrays, and on every extended real
  `x · (1/4) = x / 4` (the float 0.25 is exactly 1/4, the float 4 exactly 4; a quotient by a non-zero real is the
  product with its inverse, at the infinities too). No finiteness of the inputs is used.
-/
import proofs.«114679_j75531294867819_2_alg».proof.Proof.KVals
import proofs.«114679_j75531294867819_2_alg».proof.Proof.RefVals
import proofs.«114679_j75531294867819_2_alg».proof.Proof.LibEdgeSum
import Idealize.ShloMosaic.Lib.KernelVsHost
import Idealize.ShloMosaic.Lib.Pipeline.Value
import Idealize.ShloMosaic.PureOps.Ideal

noncomputable section

namespace Cert.Bridge

open Idealize.ShloMosaic Idealize.ShloMosaic.ValueIdx Cert.LibEdgeSum

abbrev Pairs := Cert.KernelIdeal.Vals.Pairs Ideal
abbrev Rows := Cert.KernelIdeal.Vals.Rows Ideal

/-! ## The shared stages -/

theorem src_eq (a0 : Pairs) : Cert.KernelIdeal.Vals.src (F := Ideal) a0 = Cert.ReferenceIdeal.Vals.src (F := Ideal) a0 := rfl
theorem dst_eq (a0 : Pairs) : Cert.KernelIdeal.Vals.dst (F := Ideal) a0 = Cert.ReferenceIdeal.Vals.dst (F := Ideal) a0 := rfl
theorem norm_eq (a0 : Pairs) : Cert.KernelIdeal.Vals.norm (F := Ideal) a0 = Cert.ReferenceIdeal.Vals.norm (F := Ideal) a0 := rfl

/-! ## Reading the padded edge list at a real edge -/

/-- A node number counted from the end is brought into range: one word at a time. -/
def wrapWord (v : BitVec 32) : BitVec 32 := Scalar.select (IntOp.cmpi .slt v 0#32) (IntOp.addi v 150000#32) v

/-- The padded starts at a real edge are the starts. -/
theorem srcP_apply (a0 : Pairs) (e : Fin 2000000) (he : e.val < 2007040) :
    Cert.KernelIdeal.Vals.srcP a0 (ix1 (⟨e.val, he⟩ : Fin 2007040)) = Cert.KernelIdeal.Vals.src a0 (ix1 e) :=
  pad_apply_of_inside ![0] ![7040] ![0] (Cert.KernelIdeal.Vals.src a0) _ Cert.KernelIdeal.Gen.pads_S2000000_S2007040_070400 Cert.KernelIdeal.Gen.h_S_
    (ix1 (⟨e.val, he⟩ : Fin 2007040)) (ix1 e) (fun a => match a with
      | ⟨0, _⟩ => by show e.val = 0 + e.val * (0 + 1); omega)

/-- The padded weights at a real edge are the weights. -/
theorem normP_apply (a0 : Pairs) (e : Fin 2000000) (he : e.val < 2007040) :
    Cert.KernelIdeal.Vals.normP a0 (ix1 (⟨e.val, he⟩ : Fin 2007040)) = Cert.KernelIdeal.Vals.norm a0 (ix1 e) :=
  pad_apply_of_inside ![0] ![7040] ![0] (Cert.KernelIdeal.Vals.norm a0) _ Cert.KernelIdeal.Gen.pads_S2000000_S2007040_070400 Cert.KernelIdeal.Gen.h_S_
    (ix1 (⟨e.val, he⟩ : Fin 2007040)) (ix1 e) (fun a => match a with
      | ⟨0, _⟩ => by show e.val = 0 + e.val * (0 + 1); omega)

/-- The weight column at row `e` is the padded weight list at `e`. -/
theorem norm2_apply (a0 : Pairs) (e' : Fin 2007040) :
    Cert.KernelIdeal.Vals.norm2 a0 (ix2 e' (0 : Fin 1)) = Cert.KernelIdeal.Vals.normP a0 (ix1 e') :=
  shapeCast_apply (Cert.KernelIdeal.Vals.normP a0) Cert.KernelIdeal.Gen.shapeCasts_S2007040_S2007040x1 (ix2 e' (0 : Fin 1)) (ix1 e')
    (by rw [Shape.rowMajor_val_one, Shape.rowMajor_val_two]; show e'.val = e'.val * 1 + 0; omega)

/-- The kernel's column of row numbers at row `e`: the padded start at `e`, brought into range. -/
theorem colP_apply (a0 : Pairs) (e' : Fin 2007040) :
    Cert.KernelIdeal.Vals.colP a0 (ix2 e' (0 : Fin 1)) = wrapWord (Cert.KernelIdeal.Vals.srcP a0 (ix1 e')) := by
  unfold Cert.KernelIdeal.Vals.colP
  refine (bcast_col_apply (A := 2007040) Cert.KernelIdeal.Gen.bcast_S2007040_S2007040x1_0 _ e').trans ?_
  rfl

/-- The reference's column of row numbers: the starts, brought into range. -/
def colR (a0 : Pairs) : IVec ⟨2, ![2000000, 1]⟩ 32 :=
  broadcastInDim Cert.ReferenceIdeal.S2000000x1 ![0] Cert.ReferenceIdeal.Gen.bcast_S2000000_S2000000x1_0 (Cert.ReferenceIdeal.Vals.wrap (F := Ideal) (Cert.ReferenceIdeal.Vals.src a0))

/-- At edge `e` it is the start at `e`, brought into range. -/
theorem colR_apply (a0 : Pairs) (e : Fin 2000000) :
    colR a0 (ix2 e (0 : Fin 1)) = wrapWord (Cert.ReferenceIdeal.Vals.src (F := Ideal) a0 (ix1 e)) := by
  unfold colR
  refine (bcast_col_apply (A := 2000000) Cert.ReferenceIdeal.Gen.bcast_S2000000_S2000000x1_0 _ e).trans ?_
  rfl

/-- The row an edge reads depends on the edge's entry of the index column only. -/
theorem row_congr {N E E' w : Nat} (hN : 0 < N) (idx : IVec ⟨2, ![E, 1]⟩ w) (idx' : IVec ⟨2, ![E', 1]⟩ w) (e : Fin E) (e' : Fin E')
    (h : idx (ix2 e (0 : Fin 1)) = idx' (ix2 e' (0 : Fin 1))) : row hN idx e = row hN idx' e' := by
  apply Fin.ext
  show min (key idx e).toNat (N - 1) = min (key idx' e').toNat (N - 1)
  unfold key
  rw [h]

/-- The kernel's gather over the padded edge list reads, at edge `e`, the row the column names there. -/
theorem gK_apply (x : Rows) (idx : IVec ⟨2, ![2007040, 1]⟩ 32) (e : Fin 2007040) (d : Fin 64) :
    Host.gather Cert.KernelIdeal.gather_S150000x64_S2007040x1_S2007040x64_1_0_n_n_0_1_164 x idx (ix2 e d)
      = x (ix2 (row (N := 150000) (by decide) idx e) d) :=
  gather2_apply (N := 150000) (E := 2007040) (C := 64) (by decide) Cert.KernelIdeal.Gen.gather_S150000x64_S2007040x1_S2007040x64_1_0_n_n_0_1_164_wf x idx e d

/-- The reference's gather over the edge list, likewise. -/
theorem gR_apply (x : Rows) (idx : IVec ⟨2, ![2000000, 1]⟩ 32) (e : Fin 2000000) (d : Fin 64) :
    Host.gather Cert.ReferenceIdeal.gather_S150000x64_S2000000x1_S2000000x64_1_0_n_n_0_1_164 x idx (ix2 e d)
      = x (ix2 (row (N := 150000) (by decide) idx e) d) :=
  gather2_apply (N := 150000) (E := 2000000) (C := 64) (by decide) Cert.ReferenceIdeal.Gen.gather_S150000x64_S2000000x1_S2000000x64_1_0_n_n_0_1_164_wf x idx e d

/-! ## One layer -/

/-- The weighted source rows: made on the padded edge list and cut back, or made on the edge list. -/
theorem msgs_eq (a0 : Pairs) (x : Rows) :
    extractStridedSlice Cert.KernelIdeal.S2000000x64 ![0, 0] (Cert.KernelIdeal.Vals.mulRows (Cert.KernelIdeal.Vals.xg a0 x) (Cert.KernelIdeal.Vals.norm2 a0)) Cert.KernelIdeal.Gen.slices_S2007040x64_S2000000x64_0_0
      = mulf (F := Ideal) (s := Cert.ReferenceIdeal.S2000000x64) (φ := .f32) (Host.gather Cert.ReferenceIdeal.gather_S150000x64_S2000000x1_S2000000x64_1_0_n_n_0_1_164 x
          (broadcastInDim Cert.ReferenceIdeal.S2000000x1 ![0] Cert.ReferenceIdeal.Gen.bcast_S2000000_S2000000x1_0 (Cert.ReferenceIdeal.Vals.wrap (F := Ideal) (Cert.ReferenceIdeal.Vals.src a0))))
        (broadcastInDim Cert.ReferenceIdeal.S2000000x64 ![0, 1] Cert.ReferenceIdeal.Gen.bcast_S2000000x1_S2000000x64_0_1
          (broadcastInDim Cert.ReferenceIdeal.S2000000x1 ![0] Cert.ReferenceIdeal.Gen.bcast_S2000000_S2000000x1_0 (Cert.ReferenceIdeal.Vals.norm (F := Ideal) a0))) := by
  funext i
  obtain ⟨e, d, rfl⟩ : ∃ (e : Fin 2000000) (d : Fin 64), i = ix2 e d := ⟨i 0, i 1, eq_ix2 i⟩
  have he : e.val < 2007040 := by have := e.isLt; omega
  refine (extractStridedSlice_apply ![0, 0] _ Cert.KernelIdeal.Gen.slices_S2007040x64_S2000000x64_0_0 (ix2 e d) (ix2 (⟨e.val, he⟩ : Fin 2007040) d)
    (fun a => match a with
      | ⟨0, _⟩ => by show e.val = 0 + e.val; omega
      | ⟨1, _⟩ => by show d.val = 0 + d.val; omega)).trans ?_
  show FloatOps.mulf (Cert.KernelIdeal.Vals.xg a0 x (ix2 (⟨e.val, he⟩ : Fin 2007040) d)) (Cert.KernelIdeal.Vals.norm2 a0 (ix2 (⟨e.val, he⟩ : Fin 2007040) (0 : Fin 1)))
    = FloatOps.mulf (Host.gather Cert.ReferenceIdeal.gather_S150000x64_S2000000x1_S2000000x64_1_0_n_n_0_1_164 x
          (broadcastInDim Cert.ReferenceIdeal.S2000000x1 ![0] Cert.ReferenceIdeal.Gen.bcast_S2000000_S2000000x1_0 (Cert.ReferenceIdeal.Vals.wrap (F := Ideal) (Cert.ReferenceIdeal.Vals.src a0))) (ix2 e d))
        (broadcastInDim Cert.ReferenceIdeal.S2000000x64 ![0, 1] Cert.ReferenceIdeal.Gen.bcast_S2000000x1_S2000000x64_0_1
          (broadcastInDim Cert.ReferenceIdeal.S2000000x1 ![0] Cert.ReferenceIdeal.Gen.bcast_S2000000_S2000000x1_0 (Cert.ReferenceIdeal.Vals.norm (F := Ideal) a0)) (ix2 e d))
  have hg : Cert.KernelIdeal.Vals.xg a0 x (ix2 (⟨e.val, he⟩ : Fin 2007040) d)
      = Host.gather Cert.ReferenceIdeal.gather_S150000x64_S2000000x1_S2000000x64_1_0_n_n_0_1_164 x
          (broadcastInDim Cert.ReferenceIdeal.S2000000x1 ![0] Cert.ReferenceIdeal.Gen.bcast_S2000000_S2000000x1_0 (Cert.ReferenceIdeal.Vals.wrap (F := Ideal) (Cert.ReferenceIdeal.Vals.src a0))) (ix2 e d) := by
    refine (gK_apply x (Cert.KernelIdeal.Vals.colP a0) (⟨e.val, he⟩ : Fin 2007040) d).trans ?_
    refine Eq.trans ?_ (gR_apply x (colR a0) e d).symm
    refine congrArg (fun r => x (ix2 r d)) (row_congr (by decide) _ _ _ _ ?_)
    exact (colP_apply a0 _).trans ((congrArg wrapWord ((srcP_apply a0 e he).trans (congrFun (src_eq a0) _))).trans (colR_apply a0 e).symm)
  have hn : Cert.KernelIdeal.Vals.norm2 a0 (ix2 (⟨e.val, he⟩ : Fin 2007040) (0 : Fin 1))
      = broadcastInDim Cert.ReferenceIdeal.S2000000x64 ![0, 1] Cert.ReferenceIdeal.Gen.bcast_S2000000x1_S2000000x64_0_1
          (broadcastInDim Cert.ReferenceIdeal.S2000000x1 ![0] Cert.ReferenceIdeal.Gen.bcast_S2000000_S2000000x1_0 (Cert.ReferenceIdeal.Vals.norm (F := Ideal) a0)) (ix2 e d) := by
    rw [norm2_apply, normP_apply a0 e he, norm_eq]
    refine Eq.symm ((bcast_cols_apply (A := 2000000) (B := 64) Cert.ReferenceIdeal.Gen.bcast_S2000000x1_S2000000x64_0_1 _ e d).trans ?_)
    exact bcast_col_apply (A := 2000000) Cert.ReferenceIdeal.Gen.bcast_S2000000_S2000000x1_0 _ e
  rw [hg, hn]

/-- The two programs' layers are one function. -/
theorem layer_eq (a0 : Pairs) (x : Rows) : Cert.KernelIdeal.Vals.layer a0 x = Cert.ReferenceIdeal.Vals.layer a0 x := by
  unfold Cert.KernelIdeal.Vals.layer Cert.ReferenceIdeal.Vals.layer
  rw [msgs_eq a0 x]
  rfl

/-! ## The mean -/

theorem ofBits_quarter : Ideal.ofBits .f32 0x3E800000#32 = ((1 / 4 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

/-- On every extended real, the product with the float 0.25 is the quotient by the float 4. -/
theorem quarter_eq (x : EReal) : x * Ideal.ofBits .f32 0x3E800000#32 = Ideal.div x (Ideal.ofBits .f32 0x40800000#32) := by
  rw [ofBits_quarter, ofBits_four, Ideal.div_coe (by norm_num : (4 : ℝ) ≠ 0)]

/-- A padded node array at a real row is the array. -/
theorem padN_apply (z : Rows) (n : Fin 150000) (d : Fin 64) (hn : n.val < 151552) :
    Cert.KernelIdeal.Vals.padN z (ix2 (⟨n.val, hn⟩ : Fin 151552) d) = z (ix2 n d) :=
  pad_apply_of_inside ![0, 0] ![1552, 0] ![0, 0] z _ Cert.KernelIdeal.Gen.pads_S150000x64_S151552x64_015520_000 Cert.KernelIdeal.Gen.h_S_
    (ix2 (⟨n.val, hn⟩ : Fin 151552) d) (ix2 n d) (fun a => match a with
      | ⟨0, _⟩ => by show n.val = 0 + n.val * (0 + 1); omega
      | ⟨1, _⟩ => by show d.val = 0 + d.val * (0 + 1); omega)

/-- The kernel's mean with the padding cut off is the reference's total, entry by entry. -/
theorem out_eq (a0 : Pairs) (a1 : Rows) : Cert.KernelIdeal.Vals.out a0 a1 = Cert.ReferenceIdeal.Vals.total a0 a1 := by
  funext i
  obtain ⟨n, d, rfl⟩ : ∃ (n : Fin 150000) (d : Fin 64), i = ix2 n d := ⟨i 0, i 1, eq_ix2 i⟩
  have hn : n.val < 151552 := by have := n.isLt; omega
  unfold Cert.KernelIdeal.Vals.out
  refine (extractStridedSlice_apply ![0, 0] _ Cert.KernelIdeal.Gen.slices_S151552x64_S150000x64_0_0 (ix2 n d) (ix2 (⟨n.val, hn⟩ : Fin 151552) d)
    (fun a => match a with
      | ⟨0, _⟩ => by show n.val = 0 + n.val; omega
      | ⟨1, _⟩ => by show d.val = 0 + d.val; omega)).trans ?_
  show (((Cert.KernelIdeal.Vals.padN a1 (ix2 (⟨n.val, hn⟩ : Fin 151552) d) + Cert.KernelIdeal.Vals.padN (Cert.KernelIdeal.Vals.layer a0 a1) (ix2 (⟨n.val, hn⟩ : Fin 151552) d))
        + Cert.KernelIdeal.Vals.padN (Cert.KernelIdeal.Vals.layer a0 (Cert.KernelIdeal.Vals.layer a0 a1)) (ix2 (⟨n.val, hn⟩ : Fin 151552) d))
        + Cert.KernelIdeal.Vals.padN (Cert.KernelIdeal.Vals.layer a0 (Cert.KernelIdeal.Vals.layer a0 (Cert.KernelIdeal.Vals.layer a0 a1))) (ix2 (⟨n.val, hn⟩ : Fin 151552) d))
      * Ideal.ofBits .f32 0x3E800000#32
    = Ideal.div (((a1 (ix2 n d) + Cert.ReferenceIdeal.Vals.layer a0 a1 (ix2 n d)) + Cert.ReferenceIdeal.Vals.layer a0 (Cert.ReferenceIdeal.Vals.layer a0 a1) (ix2 n d))
        + Cert.ReferenceIdeal.Vals.layer a0 (Cert.ReferenceIdeal.Vals.layer a0 (Cert.ReferenceIdeal.Vals.layer a0 a1)) (ix2 n d)) (Ideal.ofBits .f32 0x40800000#32)
  rw [padN_apply, padN_apply, padN_apply, padN_apply, layer_eq, layer_eq, layer_eq]
  exact quarter_eq _

/-- The users' rows. -/
theorem users_eq (a0 : Pairs) (a1 : Rows) : Cert.KernelIdeal.Vals.resUsers a0 a1 = Cert.ReferenceIdeal.Vals.resUsers a0 a1 := by
  unfold Cert.KernelIdeal.Vals.resUsers Cert.ReferenceIdeal.Vals.resUsers
  rw [out_eq]

/-- The items' rows. -/
theorem items_eq (a0 : Pairs) (a1 : Rows) : Cert.KernelIdeal.Vals.resItems a0 a1 = Cert.ReferenceIdeal.Vals.resItems a0 a1 := by
  unfold Cert.KernelIdeal.Vals.resItems Cert.ReferenceIdeal.Vals.resItems
  rw [out_eq]

end Cert.Bridge

end
-- ==== Proof.lean ====
/-
  The certificate of a three-layer degree-normalised neighbour aggregation over a bipartite user–item graph, averaged
  with the embedding (`Cert.Claim`: the three frames, the idealization's ledger, and the equality of the two idealized
  programs' results on the extended reals).

  Both programs symmetrise the 1 000 000 (user, item) pairs into 2 000 000 directed edges, count the edges arriving at
  each of the 150 000 nodes, weigh edge `e` by deg[src e]^(-1/2) · deg[dst e]^(-1/2) (0 where a degree is 0), and three
  times send every node's 64-entry row along its outgoing edges, scaled by the edge's weight, summing what arrives;
  the result is the mean of the embedding and the three layers, split into the users' and the items' rows.
  The kernel's program does the scaling and the mean in four pipelined regions over padded arrays (245 blocks of 8192
  edges; 37 blocks of 4096 nodes) and multiplies by 0.25 where the reference divides by 4.

  The proof: the kernel's frames are the generated ones; its run is the same launch with the result buffers read as
  well (`Run.run`), the buffer contents at the return unfolded segment by segment to the stage functions of the
  arguments (`Chain`), each region by the whole-array function its blocks tile (`Regions`); the reference's run is its
  list of operations read back (`ValueP.run`), its result terms the stage functions of `RefVals`; and the two results
  are one function of the arguments (`Bridge`): the padding is never read at a real edge or node, and `x · (1/4) = x / 4`
  on every extended real. The precondition (finite inputs) is not used. The ideal pass rewrote nothing, so
  `preserves` is `True`.
-/
import proofs.«114679_j75531294867819_2_alg».proof.Defs
import proofs.«114679_j75531294867819_2_alg».proof.Proof.Gen.Kernel
import proofs.«114679_j75531294867819_2_alg».proof.Proof.Gen.Kernel.Skeleton
import proofs.«114679_j75531294867819_2_alg».proof.Proof.Gen.Kernel.Launch
import proofs.«114679_j75531294867819_2_alg».proof.Proof.Gen.Kernel.Points
import proofs.«114679_j75531294867819_2_alg».proof.Proof.Gen.Kernel.Frame
import proofs.«114679_j75531294867819_2_alg».proof.Proof.Gen.KernelIdeal
import proofs.«114679_j75531294867819_2_alg».proof.Proof.Gen.KernelIdeal.Skeleton
import proofs.«114679_j75531294867819_2_alg».proof.Proof.Gen.KernelIdeal.Launch
import proofs.«114679_j75531294867819_2_alg».proof.Proof.Gen.KernelIdeal.Points
import proofs.«114679_j75531294867819_2_alg».proof.Proof.Gen.KernelIdeal.Frame
import proofs.«114679_j75531294867819_2_alg».proof.Proof.Gen.ReferenceIdeal
import proofs.«114679_j75531294867819_2_alg».proof.Proof.Gen.Pre_finite_inputs
import proofs.«114679_j75531294867819_2_alg».proof.Proof.KRun
import proofs.«114679_j75531294867819_2_alg».proof.Proof.Chain
import proofs.«114679_j75531294867819_2_alg».proof.Proof.RefRunP
import proofs.«114679_j75531294867819_2_alg».proof.Proof.RefVals
import proofs.«114679_j75531294867819_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both runs end with the users' and the items' rows of the mean of the embedding and its three layers, computed from
    the arguments as launched: the kernel's by its chain of segments, the reference's by its operations, and the two
    are one function of the arguments. -/
theorem algebraic : Cert.algebraic_KernelIdeal_ReferenceIdeal := by
  intro m ρ m' ρ' _ hagree
  refine ⟨fun c => Cert.KernelIdeal.Vals.resUsers (Cert.KernelIdeal.Chain.A0 m c) (Cert.KernelIdeal.Chain.A1 m c),
    fun c => Cert.KernelIdeal.Vals.resItems (Cert.KernelIdeal.Chain.A0 m c) (Cert.KernelIdeal.Chain.A1 m c), ?_, ?_⟩
  · exact (θ_run Cert.KernelIdeal.defs _ _).mono
      (fun r h c => ⟨(h c).1.trans (Cert.KernelIdeal.Chain.c22_v78 m ρ c), (h c).2.1.trans (Cert.KernelIdeal.Chain.c22_v79 m ρ c),
        (h c).2.2.1, (h c).2.2.2⟩)
      (Cert.KernelIdeal.Run.run (F := Ideal) m ρ)
  · refine (θ_run Cert.ReferenceIdeal.defs _ _).mono (fun r h c => ⟨?_, ?_, (h c).2.2.1, (h c).2.2.2⟩)
      (Cert.ReferenceIdeal.ValueP.run (F := Ideal) m' ρ')
    · rw [(h c).1, Cert.ReferenceIdeal.Vals.res_users_eq, (hagree c).1, (hagree c).2]
      exact (Cert.Bridge.users_eq _ _).symm
    · rw [(h c).2.1, Cert.ReferenceIdeal.Vals.res_items_eq, (hagree c).1, (hagree c).2]
      exact (Cert.Bridge.items_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
